-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S16x1 : Shape := ⟨2, ![16, 1]⟩
abbrev S16 : Shape := ⟨1, ![16]⟩
abbrev S16x16 : Shape := ⟨2, ![16, 16]⟩
abbrev S32x16 : Shape := ⟨2, ![32, 16]⟩
abbrev S32 : Shape := ⟨1, ![32]⟩
abbrev S32x32 : Shape := ⟨2, ![32, 32]⟩
abbrev S2x32 : Shape := ⟨2, ![2, 32]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg19 : FVec F S32 .f32) (main_arg20 : FVec F S2x32 .f32) (main_arg21 : FVec F S2 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S2x32 .f32 := Host.absf main_arg20
  let main_cst_36 : FVec F S_ .f32 := constant S_ .f32 0x7F800000#32
  let main_v95 : FVec F S2x32 .f32 := broadcastInDim S2x32 ![] bcast_S_S2x32 main_cst_36
  let main_v96 : IVec S2x32 1 := cmpf .olt main_v94 main_v95
  let main_c_37 : IVec S_ 1 := constantI S_ 1 1#1
  let main_v97 : IVec S_ 1 := (fun x v => Host.reduce IntOp.andi x v reducesTo_S2x32_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg15 : FVec F S32x16 .f32) (main_arg16 : FVec F S32 .f32) (main_arg17 : FVec F S32x16 .f32) (main_arg18 : FVec F S32x32 .f32) (main_arg19 : FVec F S32 .f32) (main_arg20 : FVec F S2x32 .f32) (main_arg21 : FVec F S2 .f32) (main_v63 : IVec S_ 1) (main_v67 : IVec S_ 1) : IVec S_ 1 :=
  let main_v68 : IVec S_ 1 := andi main_v63 main_v67
  let main_v69 : FVec F S32x16 .f32 := Host.absf main_arg15
  let main_cst_26 : FVec F S_ .f32 := constant S_ .f32 0x7F800000#32
  let main_v70 : FVec F S32x16 .f32 := broadcastInDim S32x16 ![] bcast_S_S32x16 main_cst_26
  let main_v71 : IVec S32x16 1 := cmpf .olt main_v69 main_v70
  let main_c_27 : IVec S_ 1 := constantI S_ 1 1#1
  let main_v72 : IVec S_ 1 := (fun x v => Host.reduce IntOp.andi x v reducesTo_S32x16_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x16 .f32 := Host.absf main_arg17
  let main_cst_30 : FVec F S_ .f32 := constant S_ .f32 0x7F800000#32
  let main_v80 : FVec F S32x16 .f32 := broadcastInDim S32x16 ![] bcast_S_S32x16 main_cst_30
  let main_v81 : IVec S32x16 1 := cmpf .olt main_v79 main_v80
  let main_c_31 : IVec S_ 1 := constantI S_ 1 1#1
  let main_v82 : IVec S_ 1 := (fun x v => Host.reduce IntOp.andi x v reducesTo_S32x16_S_d0_1 h_S_) main_v81 main_c_31
  let main_v83 : IVec S_ 1 := andi main_v78 main_v82
  let main_v84 : FVec F S32x32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S16x16 .f32) (main_arg13 : FVec F S16 .f32) (main_arg14 : FVec F S16x16 .f32) (main_arg15 : FVec F S32x16 .f32) (main_arg16 : FVec F S32 .f32) (main_arg17 : FVec F S32x16 .f32) (main_arg18 : FVec F S32x32 .f32) (main_arg19 : FVec F S32 .f32) (main_arg20 : FVec F S2x32 .f32) (main_arg21 : FVec F S2 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S32x16 .f32) (main_arg16 : FVec F S32 .f32) (main_arg17 : FVec F S32x16 .f32) (main_arg18 : FVec F S32x32 .f32) (main_arg19 : FVec F S32 .f32) (main_arg20 : FVec F S2x32 .f32) (main_arg21 : FVec F S2 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S16 .f32) (main_arg6 : FVec F S16 .f32) (main_arg7 : FVec F S16 .f32) (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S32x16 .f32) (main_arg16 : FVec F S32 .f32) (main_arg17 : FVec F S32x16 .f32) (main_arg18 : FVec F S32x32 .f32) (main_arg19 : FVec F S32 .f32) (main_arg20 : FVec F S2x32 .f32) (main_arg21 : FVec F S2 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x1 .f32) (main_arg1 : IVec S2x3200000 32) (main_arg2 : FVec F S16x1 .f32) (main_arg3 : FVec F S16 .f32) (main_arg4 : FVec F S16x1 .f32) (main_arg5 : FVec F S16 .f32) (main_arg6 : FVec F S16 .f32) (main_arg7 : FVec F S16 .f32) (main_arg8 : FVec F S16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S32x16 .f32) (main_arg16 : FVec F S32 .f32) (main_arg17 : FVec F S32x16 .f32) (main_arg18 : FVec F S32x32 .f32) (main_arg19 : FVec F S32 .f32) (main_arg20 : FVec F S2x32 .f32) (main_arg21 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S16x1 .f32 := Host.absf main_arg2
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x1 : Shape := ⟨2, ![100000, 1]⟩
abbrev S2x3200000 : Shape := ⟨2, ![2, 3200000]⟩
abbrev S16x1 : Shape := ⟨2, ![16, 1]⟩
abbrev S16 : Shape := ⟨1, ![16]⟩
abbrev S16x16 : Shape := ⟨2, ![16, 16]⟩
abbrev S32x16 : Shape := ⟨2, ![32, 16]⟩
abbrev S32 : Shape := ⟨1, ![32]⟩
abbrev S32x32 : Shape := ⟨2, ![32, 32]⟩
abbrev S2x32 : Shape := ⟨2, ![2, 32]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S10000x1 : Shape := ⟨2, ![10000, 1]⟩
abbrev S10000x16 : Shape := ⟨2, ![10000, 16]⟩
abbrev S1x16 : Shape := ⟨2, ![1, 16]⟩
abbrev S3200000x16 : Shape := ⟨2, ![3200000, 16]⟩
abbrev S100000x32 : Shape := ⟨2, ![100000, 32]⟩
abbrev S10000x32 : Shape := ⟨2, ![10000, 32]⟩
abbrev S16x32 : Shape := ⟨2, ![16, 32]⟩
abbrev S1x32 : Shape := ⟨2, ![1, 32]⟩
abbrev S100000x2 : Shape := ⟨2, ![100000, 2]⟩
abbrev S10000x2 : Shape := ⟨2, ![10000, 2]⟩
abbrev S32x2 : Shape := ⟨2, ![32, 2]⟩
abbrev S1x2 : Shape := ⟨2, ![1, 2]⟩
abbrev S10000 : Shape := ⟨1, ![10000]⟩

abbrev nBuf : Space → Nat
  | .hbm => 103
  | .vmem => 48
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S16x1, .f32⟩
  | .hbm, ⟨3, _⟩ => ⟨S16, .f32⟩
  | .hbm, ⟨4, _⟩ => ⟨S16x1, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16x16, .f32⟩
  | .hbm, ⟨13, _⟩ => ⟨S16, .f32⟩
  | .hbm, ⟨14, _⟩ => ⟨S16x16, .f32⟩
  | .hbm, ⟨15, _⟩ => ⟨S32x16, .f32⟩
  | .hbm, ⟨16, _⟩ => ⟨S32, .f32⟩
  | .hbm, ⟨17, _⟩ => ⟨S32x16, .f32⟩
  | .hbm, ⟨18, _⟩ => ⟨S32x32, .f32⟩
  | .hbm, ⟨19, _⟩ => ⟨S32, .f32⟩
  | .hbm, ⟨20, _⟩ => ⟨S2x32, .f32⟩
  | .hbm, ⟨21, _⟩ => ⟨S2, .f32⟩
  | .hbm, ⟨22, _⟩ => ⟨S1x3200000, .i32⟩
  | .hbm, ⟨23, _⟩ => ⟨S3200000, .i32⟩
  | .hbm, ⟨24, _⟩ => ⟨S1x3200000, .i32⟩
  | .hbm, ⟨25, _⟩ => ⟨S3200000, .i32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x1, .f32⟩
  | .hbm, ⟨48, _⟩ => ⟨S_, .f32⟩
  | .hbm, ⟨49, _⟩ => ⟨S100000x1, .f32⟩
  | .hbm, ⟨50, _⟩ => ⟨S3200000x1, .i32⟩
  | .hbm, ⟨51, _⟩ => ⟨S100000x1, .f32⟩
  | .hbm, ⟨52, _⟩ => ⟨S100000x1, .f32⟩
  | .hbm, ⟨53, _⟩ => ⟨S100000x16, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000x16, .f32⟩
  | .hbm, ⟨63, _⟩ => ⟨S_, .f32⟩
  | .hbm, ⟨64, _⟩ => ⟨S100000x16, .f32⟩
  | .hbm, ⟨65, _⟩ => ⟨S3200000x1, .i32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x16, .f32⟩
  | .hbm, ⟨79, _⟩ => ⟨S_, .f32⟩
  | .hbm, ⟨80, _⟩ => ⟨S100000x16, .f32⟩
  | .hbm, ⟨81, _⟩ => ⟨S3200000x1, .i32⟩
  | .hbm, ⟨82, _⟩ => ⟨S100000x16, .f32⟩
  | .hbm, ⟨83, _⟩ => ⟨S100000x16, .f32⟩
  | .hbm, ⟨84, _⟩ => ⟨S100000x16, .f32⟩
  | .hbm, ⟨85, _⟩ => ⟨S100000x16, .f32⟩
  | .hbm, ⟨86, _⟩ => ⟨S_, .i32⟩
  | .hbm, ⟨87, _⟩ => ⟨S3200000, .i32⟩
  | .hbm, ⟨88, _⟩ => ⟨S3200000, .i1⟩
  | .hbm, ⟨89, _⟩ => ⟨S_, .i32⟩
  | .hbm, ⟨90, _⟩ => ⟨S3200000, .i32⟩
  | .hbm, ⟨91, _⟩ => ⟨S3200000, .i32⟩
  | .hbm, ⟨92, _⟩ => ⟨S3200000, .i32⟩
  | .hbm, ⟨93, _⟩ => ⟨S3200000x1, .i32⟩
  | .hbm, ⟨94, _⟩ => ⟨S3200000x16, .f32⟩
  | .hbm, ⟨95, _⟩ => ⟨S_, .f32⟩
  | .hbm, ⟨96, _⟩ => ⟨S100000x16, .f32⟩
  | .hbm, ⟨97, _⟩ => ⟨S3200000x1, .i32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S100000x32, .f32⟩
  | .hbm, ⟨102, _⟩ => ⟨S100000x2, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S16x1, .f32⟩
  | .local _ .vmem, ⟨5, _⟩ => ⟨S16, .f32⟩
  | .local _ .vmem, ⟨6, _⟩ => ⟨S16x1, .f32⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S16x16, .f32⟩
  | .local _ .vmem, ⟨18, _⟩ => ⟨S16, .f32⟩
  | .local _ .vmem, ⟨19, _⟩ => ⟨S16x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S16x16, .f32⟩
  | .local _ .vmem, ⟨27, _⟩ => ⟨S16, .f32⟩
  | .local _ .vmem, ⟨28, _⟩ => ⟨S16x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S10000x16, .f32⟩
  | .local _ .vmem, ⟨33, _⟩ => ⟨S10000x16, .f32⟩
  | .local _ .vmem, ⟨34, _⟩ => ⟨S10000x16, .f32⟩
  | .local _ .vmem, ⟨35, _⟩ => ⟨S32x16, .f32⟩
  | .local _ .vmem, ⟨36, _⟩ => ⟨S32, .f32⟩
  | .local _ .vmem, ⟨37, _⟩ => ⟨S32x16, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S32x32, .f32⟩
  | .local _ .vmem, ⟨43, _⟩ => ⟨S32, .f32⟩
  | .local _ .vmem, ⟨44, _⟩ => ⟨S2x32, .f32⟩
  | .local _ .vmem, ⟨45, _⟩ => ⟨S2, .f32⟩
  | .local _ .vmem, ⟨46, _⟩ => ⟨S10000x2, .f32⟩
  | .local _ .vmem, ⟨47, _⟩ => ⟨S10000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  inb_S16_S16_0 : ∀ a, (![0] : Fin 1 → Nat) a + S16.size a ≤ S16.size a
  h_S16 : 0 < S16.numel
  transposes_S16x1_p1_0_S1x16 : S16x1.Transposes [1, 0] S1x16
  shapeCasts_S16_S1x16 : S16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  inb_S32x16_S32x16_0_0 : ∀ a, (![0, 0] : Fin 2 → Nat) a + S32x16.size a ≤ S32x16.size a
  h_S32x16 : 0 < S32x16.numel
  inb_S32_S32_0 : ∀ a, (![0] : Fin 1 → Nat) a + S32.size a ≤ S32.size a
  h_S32 : 0 < S32.numel
  transposes_S32x16_p1_0_S16x32 : S32x16.Transposes [1, 0] S16x32
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S2x32_S2x32_0_0 : ∀ a, (![0, 0] : Fin 2 → Nat) a + S2x32.size a ≤ S2x32.size a
  h_S2x32 : 0 < S2x32.numel
  inb_S2_S2_0 : ∀ a, (![0] : Fin 1 → Nat) a + S2.size a ≤ S2.size a
  h_S2 : 0 < S2.numel
  transposes_S32x32_p1_0_S32x32 : S32x32.Transposes [1, 0] S32x32
  transposes_S2x32_p1_0_S32x2 : S2x32.Transposes [1, 0] S32x2
  shapeCasts_S2_S1x2 : S2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S10000x1_S1x16_S10000x16_1_0_0_1_n_n_wf : DotDims.WF S10000x1 S1x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S10000x16_S16x32_S10000x32_1_0_0_1_n_n_wf : DotDims.WF S10000x16 S16x32 S10000x32 [1] [0] [0] [1] [] []
  dot_S10000x32_S32x32_S10000x32_1_0_0_1_n_n_wf : DotDims.WF S10000x32 S32x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x16.size a ≤ S100000x16.size a
  hwx0_9 : ∀ i : grid0.Coords, EltTy.bits .f32 = 32 ∨ (Rect.block (s := S100000x16) S10000x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x16.size a ≤ S32x16.size a
  hwx3_4 : ∀ i : grid3.Coords, EltTy.bits .f32 = 32 ∨ (Rect.block (s := S32x16) S32x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x32.size a ≤ S2x32.size a
  hwx4_3 : ∀ i : grid4.Coords, EltTy.bits .f32 = 32 ∨ (Rect.block (s := S2x32) S2x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2.size a ≤ S2.size a
  hwx4_4 : ∀ i : grid4.Coords, EltTy.bits .f32 = 32 ∨ (Rect.block (s := S2) S2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x2.size a ≤ S100000x2.size a
  hwx4_5 : ∀ i : grid4.Coords, EltTy.bits .f32 = 32 ∨ (Rect.block (s := S100000x2) S10000x2.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v23) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S10000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S32x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg19) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S2x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg21) S2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S10000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S16x1 : Shape := ⟨2, ![16, 1]⟩
abbrev S16 : Shape := ⟨1, ![16]⟩
abbrev S16x16 : Shape := ⟨2, ![16, 16]⟩
abbrev S32x16 : Shape := ⟨2, ![32, 16]⟩
abbrev S32 : Shape := ⟨1, ![32]⟩
abbrev S32x32 : Shape := ⟨2, ![32, 32]⟩
abbrev S2x32 : Shape := ⟨2, ![2, 32]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x16 : Shape := ⟨2, ![1, 16]⟩
abbrev S100000x16 : Shape := ⟨2, ![100000, 16]⟩
abbrev S3200000x16 : Shape := ⟨2, ![3200000, 16]⟩
abbrev S16x32 : Shape := ⟨2, ![16, 32]⟩
abbrev S100000x32 : Shape := ⟨2, ![100000, 32]⟩
abbrev S1x32 : Shape := ⟨2, ![1, 32]⟩
abbrev S32x2 : Shape := ⟨2, ![32, 2]⟩
abbrev S100000x2 : Shape := ⟨2, ![100000, 2]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S100000x1, .f32⟩
  | 1 => ⟨S2x3200000, .i32⟩
  | 2 => ⟨S16x1, .f32⟩
  | 3 => ⟨S16, .f32⟩
  | 4 => ⟨S16x1, .f32⟩
  | 5 => ⟨S16, .f32⟩
  | 6 => ⟨S16, .f32⟩
  | 7 => ⟨S16, .f32⟩
  | 8 => ⟨S16, .f32⟩
  | 9 => ⟨S16x16, .f32⟩
  | 10 => ⟨S16, .f32⟩
  | 11 => ⟨S16x16, .f32⟩
  | 12 => ⟨S16x16, .f32⟩
  | 13 => ⟨S16, .f32⟩
  | 14 => ⟨S16x16, .f32⟩
  | 15 => ⟨S32x16, .f32⟩
  | 16 => ⟨S32, .f32⟩
  | 17 => ⟨S32x16, .f32⟩
  | 18 => ⟨S32x32, .f32⟩
  | 19 => ⟨S32, .f32⟩
  | 20 => ⟨S2x32, .f32⟩
  | 21 => ⟨S2, .f32⟩
  | 22 => ⟨S1x3200000, .i32⟩
  | 23 => ⟨S3200000, .i32⟩
  | 24 => ⟨S1x3200000, .i32⟩
  | 25 => ⟨S3200000, .i32⟩
  | 26 => ⟨S_, .f32⟩
  | 27 => ⟨S3200000, .f32⟩
  | 28 => ⟨S_, .f32⟩
  | 29 => ⟨S100000, .f32⟩
  | 30 => ⟨S3200000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000x1, .f32⟩
  | 48 => ⟨S_, .f32⟩
  | 49 => ⟨S100000x1, .f32⟩
  | 50 => ⟨S3200000x1, .i32⟩
  | 51 => ⟨S100000x1, .f32⟩
  | 52 => ⟨S100000x1, .f32⟩
  | 53 => ⟨S1x16, .f32⟩
  | 54 => ⟨S100000x16, .f32⟩
  | 55 => ⟨S1x16, .f32⟩
  | 56 => ⟨S100000x16, .f32⟩
  | 57 => ⟨S100000x16, .f32⟩
  | 58 => ⟨S1x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S16, .f32⟩
  | 66 => ⟨S16, .f32⟩
  | 67 => ⟨S16, .f32⟩
  | 68 => ⟨S1x16, .f32⟩
  | 69 => ⟨S100000x16, .f32⟩
  | 70 => ⟨S100000x16, .f32⟩
  | 71 => ⟨S1x16, .f32⟩
  | 72 => ⟨S100000x16, .f32⟩
  | 73 => ⟨S100000x16, .f32⟩
  | 74 => ⟨S1x16, .f32⟩
  | 75 => ⟨S100000x16, .f32⟩
  | 76 => ⟨S100000x16, .f32⟩
  | 77 => ⟨S_, .f32⟩
  | 78 => ⟨S100000x16, .f32⟩
  | 79 => ⟨S100000x16, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000x16, .f32⟩
  | 89 => ⟨S_, .f32⟩
  | 90 => ⟨S100000x16, .f32⟩
  | 91 => ⟨S3200000x1, .i32⟩
  | 92 => ⟨S100000x16, .f32⟩
  | 93 => ⟨S100000x16, .f32⟩
  | 94 => ⟨S100000x16, .f32⟩
  | 95 => ⟨S16x16, .f32⟩
  | 96 => ⟨S100000x16, .f32⟩
  | 97 => ⟨S1x16, .f32⟩
  | 98 => ⟨S100000x16, .f32⟩
  | 99 => ⟨S100000x16, .f32⟩
  | 100 => ⟨S16x16, .f32⟩
  | 101 => ⟨S100000x16, .f32⟩
  | 102 => ⟨S100000x16, .f32⟩
  | 103 => ⟨S_, .f32⟩
  | 104 => ⟨S100000x16, .f32⟩
  | 105 => ⟨S100000x16, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x16, .f32⟩
  | 115 => ⟨S_, .f32⟩
  | 116 => ⟨S100000x16, .f32⟩
  | 117 => ⟨S3200000x1, .i32⟩
  | 118 => ⟨S100000x16, .f32⟩
  | 119 => ⟨S100000x16, .f32⟩
  | 120 => ⟨S100000x16, .f32⟩
  | 121 => ⟨S16x16, .f32⟩
  | 122 => ⟨S100000x16, .f32⟩
  | 123 => ⟨S1x16, .f32⟩
  | 124 => ⟨S100000x16, .f32⟩
  | 125 => ⟨S100000x16, .f32⟩
  | 126 => ⟨S16x16, .f32⟩
  | 127 => ⟨S100000x16, .f32⟩
  | _ => ⟨S100000x1, .f32⟩

abbrev hbmTy0_1 (i : Nat) : BufTy := match i % 128 with
  | 0 => ⟨S100000x16, .f32⟩
  | 1 => ⟨S_, .f32⟩
  | 2 => ⟨S100000x16, .f32⟩
  | 3 => ⟨S100000x16, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x16, .f32⟩
  | 13 => ⟨S_, .f32⟩
  | 14 => ⟨S100000x16, .f32⟩
  | 15 => ⟨S3200000x1, .i32⟩
  | 16 => ⟨S100000x16, .f32⟩
  | 17 => ⟨S100000x16, .f32⟩
  | 18 => ⟨S100000x16, .f32⟩
  | 19 => ⟨S16x32, .f32⟩
  | 20 => ⟨S100000x32, .f32⟩
  | 21 => ⟨S1x32, .f32⟩
  | 22 => ⟨S100000x32, .f32⟩
  | 23 => ⟨S100000x32, .f32⟩
  | 24 => ⟨S16x32, .f32⟩
  | 25 => ⟨S100000x32, .f32⟩
  | 26 => ⟨S100000x32, .f32⟩
  | 27 => ⟨S32x32, .f32⟩
  | 28 => ⟨S100000x32, .f32⟩
  | 29 => ⟨S1x32, .f32⟩
  | 30 => ⟨S100000x32, .f32⟩
  | 31 => ⟨S100000x32, .f32⟩
  | 32 => ⟨S_, .f32⟩
  | 33 => ⟨S100000x32, .f32⟩
  | 34 => ⟨S100000x32, .f32⟩
  | 35 => ⟨S32x2, .f32⟩
  | 36 => ⟨S100000x2, .f32⟩
  | 37 => ⟨S1x2, .f32⟩
  | 38 => ⟨S100000x2, .f32⟩
  | 39 => ⟨S100000x2, .f32⟩
  | 40 => ⟨S_, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x2, .f32⟩
  | 47 => ⟨S100000x2, .f32⟩
  | 48 => ⟨S100000x2, .f32⟩
  | 49 => ⟨S_, .f32⟩
  | 50 => ⟨S100000, .f32⟩
  | 51 => ⟨S100000x1, .f32⟩
  | 52 => ⟨S100000x2, .f32⟩
  | 53 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call0_cst : Ref sig .tc := ⟨.hbm, 77, rfl⟩
abbrev main_call0_v0 : Ref sig .tc := ⟨.hbm, 78, rfl⟩
abbrev main_v47 : Ref sig .tc := ⟨.hbm, 79, rfl⟩
abbrev main_c_6 : Ref sig .tc := ⟨.hbm, 80, rfl⟩
abbrev main_v48 : Ref sig .tc := ⟨.hbm, 81, rfl⟩
abbrev main_v49 : Ref sig .tc := ⟨.hbm, 82, rfl⟩
abbrev main_c_7 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call1_cst : Ref sig .tc := ⟨.hbm, 103, rfl⟩
abbrev main_call1_v0 : Ref sig .tc := ⟨.hbm, 104, rfl⟩
abbrev main_v68 : Ref sig .tc := ⟨.hbm, 105, rfl⟩
abbrev main_c_9 : Ref sig .tc := ⟨.hbm, 106, rfl⟩
abbrev main_v69 : Ref sig .tc := ⟨.hbm, 107, rfl⟩
abbrev main_v70 : Ref sig .tc := ⟨.hbm, 108, rfl⟩
abbrev main_c_10 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_11 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call2_cst : Ref sig .tc := ⟨.hbm, 129, rfl⟩
abbrev main_call2_v0 : Ref sig .tc := ⟨.hbm, 130, rfl⟩
abbrev main_v89 : Ref sig .tc := ⟨.hbm, 131, rfl⟩
abbrev main_c_12 : Ref sig .tc := ⟨.hbm, 132, rfl⟩
abbrev main_v90 : Ref sig .tc := ⟨.hbm, 133, rfl⟩
abbrev main_v91 : Ref sig .tc := ⟨.hbm, 134, rfl⟩
abbrev main_c_13 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_14 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call3_cst : Ref sig .tc := ⟨.hbm, 160, rfl⟩
abbrev main_call3_v0 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_15 : Ref sig .tc := ⟨.hbm, 168, rfl⟩
abbrev main_v121 : Ref sig .tc := ⟨.hbm, 169, rfl⟩
abbrev main_cst_16 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_17 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  transposes_S16x1_S1x16_1_0 : S16x1.Transposes [1, 0] S1x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S16x16_S16x16_1_0 : S16x16.Transposes [1, 0] S16x16
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S32x32_S32x32_1_0 : S32x32.Transposes [1, 0] S32x32
  bcast_S_S100000x32 : S_.BroadcastsInDim S100000x32 (![] : Fin 0 → Fin S100000x32.rank)
  transposes_S2x32_S32x2_1_0 : S2x32.Transposes [1, 0] S32x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x16_S100000x16_1_0_0_1_n_n_wf : DotDims.WF S100000x1 S1x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x32_S100000x32_1_0_0_1_n_n_wf : DotDims.WF S100000x16 S16x32 S100000x32 [1] [0] [0] [1] [] []
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KRun.lean ====
/-
  The idealized kernel's run with its result kept.

  The program is nine segments: four stretches of host operations and five pipelined regions. Every weakly fair
  execution ends with each buffer that outlives the regions holding the last segment boundary's contents, the fold
  of the segments from the launch memory; read at the result array and at the arguments this is the run's value.
-/
import proofs.«164675_j61770219651287_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the arguments end as launched. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c)⟩)

end Cert.KernelIdeal.Val

end
-- ==== Proof.ChainHost.lean ====
/-
  The kernel program's four stretches of host operations, read from an arbitrary entry valuation.

  The first stretch slices the edge list into sources and destinations, counts each node's in-degree by a
  scatter-add of ones, takes one over the maximum of the count and one, and forms the first aggregate. Each later
  stretch gathers the previous layer's output at the sources, scatter-adds at the destinations and scales by the
  inverse in-degree. The reference computes the same stages with the same operations in the same order, so each
  buffer a stretch writes is the reference's stage of the same arguments, given that the buffers the stretch reads
  hold the reference's earlier stages.
-/
import proofs.«164675_j61770219651287_1_alg».proof.Proof.Gen.KernelIdeal.Launch
import proofs.«164675_j61770219651287_1_alg».proof.Proof.Gen.ReferenceIdeal.Read
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem

set_option maxHeartbeats 2000000 in
/-- The sources: row 0 of the edge list. -/
theorem stretch0_src (W : Valuation τ sig (Elt Ideal)) (x1 : (⟨Cert.ReferenceIdeal.S2x3200000, .i32⟩ : BufTy).Contents (Elt Ideal)) (h1 : W (Proc.devRef .tc main_arg1) = x1) :
    StableHlo.after (hostOps0 (F := Ideal)) W (Proc.devRef .tc main_v1) = Cert.ReferenceIdeal.Read.val_main_v1 (F := Ideal) x1 := by
  subst h1
  after_results
  rfl

set_option maxHeartbeats 2000000 in
/-- The destinations: row 1 of the edge list. -/
theorem stretch0_dst (W : Valuation τ sig (Elt Ideal)) (x1 : (⟨Cert.ReferenceIdeal.S2x3200000, .i32⟩ : BufTy).Contents (Elt Ideal)) (h1 : W (Proc.devRef .tc main_arg1) = x1) :
    StableHlo.after (hostOps0 (F := Ideal)) W (Proc.devRef .tc main_v3) = Cert.ReferenceIdeal.Read.val_main_v3 (F := Ideal) x1 := by
  subst h1
  after_results
  rfl

set_option maxHeartbeats 2000000 in
/-- The inverse in-degree, as a column. -/
theorem stretch0_inv (W : Valuation τ sig (Elt Ideal)) (x1 : (⟨Cert.ReferenceIdeal.S2x3200000, .i32⟩ : BufTy).Contents (Elt Ideal)) (h1 : W (Proc.devRef .tc main_arg1) = x1) :
    StableHlo.after (hostOps0 (F := Ideal)) W (Proc.devRef .tc main_v12) = Cert.ReferenceIdeal.Read.val_main_v12 (F := Ideal) x1 := by
  subst h1
  after_results
  rfl

set_option maxHeartbeats 2000000 in
/-- The first aggregate: the mean of each node's in-neighbours' features. -/
theorem stretch0_agg (W : Valuation τ sig (Elt Ideal)) (x0 : (⟨Cert.ReferenceIdeal.S100000x1, .f32⟩ : BufTy).Contents (Elt Ideal)) (x1 : (⟨Cert.ReferenceIdeal.S2x3200000, .i32⟩ : BufTy).Contents (Elt Ideal)) (h0 : W (Proc.devRef .tc main_arg0) = x0) (h1 : W (Proc.devRef .tc main_arg1) = x1) :
    StableHlo.after (hostOps0 (F := Ideal)) W (Proc.devRef .tc main_v23) = Cert.ReferenceIdeal.Read.val_main_v23 (F := Ideal) x0 x1 := by
  subst h0 h1
  after_results
  rfl

set_option maxHeartbeats 2000000 in
/-- Host stretch 1: gather the previous layer's rows at the sources, add them up at the destinations, scale each
    row by the inverse in-degree — the same operations, in the same order, as the reference's stage 59. -/
theorem stretch1 (W : Valuation τ sig (Elt Ideal)) (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S16x1, .f32⟩ : BufTy).Contents (Elt Ideal)) (x3 : (⟨Cert.ReferenceIdeal.S16, .f32⟩ : BufTy).Contents (Elt Ideal)) (x4 : (⟨Cert.ReferenceIdeal.S16x1, .f32⟩ : BufTy).Contents (Elt Ideal)) (x5 : (⟨Cert.ReferenceIdeal.S16, .f32⟩ : BufTy).Contents (Elt Ideal)) (x6 : (⟨Cert.ReferenceIdeal.S16, .f32⟩ : BufTy).Contents (Elt Ideal)) (x7 : (⟨Cert.ReferenceIdeal.S16, .f32⟩ : BufTy).Contents (Elt Ideal)) (x8 : (⟨Cert.ReferenceIdeal.S16, .f32⟩ : BufTy).Contents (Elt Ideal))
    (hh : W (Proc.devRef .tc main_v24) = Cert.ReferenceIdeal.Read.val_main_v47 (F := Ideal) x0 x1 x2 x3 x4 x5 x6 x7 x8)
    (hsrc : W (Proc.devRef .tc main_v1) = Cert.ReferenceIdeal.Read.val_main_v1 (F := Ideal) x1) (hdst : W (Proc.devRef .tc main_v3) = Cert.ReferenceIdeal.Read.val_main_v3 (F := Ideal) x1) (hinv : W (Proc.devRef .tc main_v12) = Cert.ReferenceIdeal.Read.val_main_v12 (F := Ideal) x1) :
    StableHlo.after (hostOps1 (F := Ideal)) W (Proc.devRef .tc main_v36) = Cert.ReferenceIdeal.Read.val_main_v59 (F := Ideal) x0 x1 x2 x3 x4 x5 x6 x7 x8 := by
  after_results
  rw [hh, hsrc, hdst, hinv]
  rfl

set_option maxHeartbeats 2000000 in
/-- Host stretch 2: gather the previous layer's rows at the sources, add them up at the destinations, scale each
    row by the inverse in-degree — the same operations, in the same order, as the reference's stage 80. -/
theorem stretch2 (W : Valuation τ sig (Elt Ideal)) (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S16x1, .f32⟩ : BufTy).Contents (Elt Ideal)) (x3 : (⟨Cert.ReferenceIdeal.S16, .f32⟩ : BufTy).Contents (Elt Ideal)) (x4 : (⟨Cert.ReferenceIdeal.S16x1, .f32⟩ : BufTy).Contents (Elt Ideal)) (x5 : (⟨Cert.ReferenceIdeal.S16, .f32⟩ : BufTy).Contents (Elt Ideal)) (x6 : (⟨Cert.ReferenceIdeal.S16, .f32⟩ : BufTy).Contents (Elt Ideal)) (x7 : (⟨Cert.ReferenceIdeal.S16, .f32⟩ : BufTy).Contents (Elt Ideal)) (x8 : (⟨Cert.ReferenceIdeal.S16, .f32⟩ : BufTy).Contents (Elt Ideal)) (x9 : (⟨Cert.ReferenceIdeal.S16x16, .f32⟩ : BufTy).Contents (Elt Ideal)) (x10 : (⟨Cert.ReferenceIdeal.S16, .f32⟩ : BufTy).Contents (Elt Ideal)) (x11 : (⟨Cert.ReferenceIdeal.S16x16, .f32⟩ : BufTy).Contents (Elt Ideal))
    (hh : W (Proc.devRef .tc main_v37) = Cert.ReferenceIdeal.Read.val_main_v68 (F := Ideal) x0 x1 x2 x3 x4 x5 x6 x7 x8 x9 x10 x11)
    (hsrc : W (Proc.devRef .tc main_v1) = Cert.ReferenceIdeal.Read.val_main_v1 (F := Ideal) x1) (hdst : W (Proc.devRef .tc main_v3) = Cert.ReferenceIdeal.Read.val_main_v3 (F := Ideal) x1) (hinv : W (Proc.devRef .tc main_v12) = Cert.ReferenceIdeal.Read.val_main_v12 (F := Ideal) x1) :
    StableHlo.after (hostOps2 (F := Ideal)) W (Proc.devRef .tc main_v49) = Cert.ReferenceIdeal.Read.val_main_v80 (F := Ideal) x0 x1 x2 x3 x4 x5 x6 x7 x8 x9 x10 x11 := by
  after_results
  rw [hh, hsrc, hdst, hinv]
  rfl

set_option maxHeartbeats 2000000 in
/-- Host stretch 3: gather the previous layer's rows at the sources, add them up at the destinations, scale each
    row by the inverse in-degree — the same operations, in the same order, as the reference's stage 101. -/
theorem stretch3 (W : Valuation τ sig (Elt Ideal)) (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S16x1, .f32⟩ : BufTy).Contents (Elt Ideal)) (x3 : (⟨Cert.ReferenceIdeal.S16, .f32⟩ : BufTy).Contents (Elt Ideal)) (x4 : (⟨Cert.ReferenceIdeal.S16x1, .f32⟩ : BufTy).Contents (Elt Ideal)) (x5 : (⟨Cert.ReferenceIdeal.S16, .f32⟩ : BufTy).Contents (Elt Ideal)) (x6 : (⟨Cert.ReferenceIdeal.S16, .f32⟩ : BufTy).Contents (Elt Ideal)) (x7 : (⟨Cert.ReferenceIdeal.S16, .f32⟩ : BufTy).Contents (Elt Ideal)) (x8 : (⟨Cert.ReferenceIdeal.S16, .f32⟩ : BufTy).Contents (Elt Ideal)) (x9 : (⟨Cert.ReferenceIdeal.S16x16, .f32⟩ : BufTy).Contents (Elt Ideal)) (x10 : (⟨Cert.ReferenceIdeal.S16, .f32⟩ : BufTy).Contents (Elt Ideal)) (x11 : (⟨Cert.ReferenceIdeal.S16x16, .f32⟩ : BufTy).Contents (Elt Ideal)) (x12 : (⟨Cert.ReferenceIdeal.S16x16, .f32⟩ : BufTy).Contents (Elt Ideal)) (x13 : (⟨Cert.ReferenceIdeal.S16, .f32⟩ : BufTy).Contents (Elt Ideal)) (x14 : (⟨Cert.ReferenceIdeal.S16x16, .f32⟩ : BufTy).Contents (Elt Ideal))
    (hh : W (Proc.devRef .tc main_v50) = Cert.ReferenceIdeal.Read.val_main_v89 (F := Ideal) x0 x1 x2 x3 x4 x5 x6 x7 x8 x9 x10 x11 x12 x13 x14)
    (hsrc : W (Proc.devRef .tc main_v1) = Cert.ReferenceIdeal.Read.val_main_v1 (F := Ideal) x1) (hdst : W (Proc.devRef .tc main_v3) = Cert.ReferenceIdeal.Read.val_main_v3 (F := Ideal) x1) (hinv : W (Proc.devRef .tc main_v12) = Cert.ReferenceIdeal.Read.val_main_v12 (F := Ideal) x1) :
    StableHlo.after (hostOps3 (F := Ideal)) W (Proc.devRef .tc main_v62) = Cert.ReferenceIdeal.Read.val_main_v101 (F := Ideal) x0 x1 x2 x3 x4 x5 x6 x7 x8 x9 x10 x11 x12 x13 x14 := by
  after_results
  rw [hh, hsrc, hdst, hinv]
  rfl

end Cert.KernelIdeal.Chain

end
-- ==== Proof.Spec.lean ====
/-
  The network, layer by layer, as functions of whole arrays over the extended reals.

  Every dense stage of the network acts on one row of its input at a time. A SAGE "combine" takes a row `a` of the
  mean-aggregated neighbour features and the matching row `x` of the node features and returns, at output column q,
      a · Wl[q, :] + x · Wr[q, :] + b[q].
  The kernel adds the two products first and the bias last; the reference adds the bias between the two products. On
  the extended reals addition is commutative and associative (infinities included), so the two agree with no
  finiteness assumption (`combine_ref`). The first layer follows the combine with an eval-mode batch norm and a
  ReLU, the next two with a ReLU, the fourth with nothing; the decoder is linear, ReLU, linear, softmax over the two
  output columns, the softmax shifted by the row's maximum.
-/
import Idealize.ShloMosaic.PureOps.Ideal
import Idealize.ShloMosaic.Lib.ValueIdx

noncomputable section

namespace Cert.Sage

open Idealize.ShloMosaic Idealize.ShloMosaic.ValueIdx

/-- An r by c array of extended reals. -/
abbrev Mat (r c : Nat) := (⟨2, ![r, c]⟩ : Shape).Idx → EReal
/-- A length-n array of extended reals. -/
abbrev Col (n : Nat) := (⟨1, ![n]⟩ : Shape).Idx → EReal

/-- Row `p` of a matrix. -/
def row {r c : Nat} (A : Mat r c) (p : Fin r) : Fin c → EReal := fun k => A (ix2 p k)

/-- The product of a row vector with the transpose of `W`, at column `q`: the sum over k of u k * W[q, k]. -/
def dotT {K N : Nat} (u : Fin K → EReal) (W : Mat N K) (q : Fin N) : EReal := ∑ k : Fin K, u k * W (ix2 q k)

/-- One entry of a SAGE combine, the two products added first. -/
def combine {K N : Nat} (a x : Fin K → EReal) (Wl Wr : Mat N K) (b : Col N) (q : Fin N) : EReal :=
  dotT a Wl q + dotT x Wr q + b (ix1 q)

/-- The reference adds the bias between the two products: the same extended real. -/
theorem combine_ref {K N : Nat} (a x : Fin K → EReal) (Wl Wr : Mat N K) (b : Col N) (q : Fin N) :
    dotT a Wl q + b (ix1 q) + dotT x Wr q = combine a x Wl Wr b q := add_right_comm _ _ _

/-- The float zero. -/
def zero : EReal := Ideal.ofBits .f32 0x00000000#32
/-- The batch norm's epsilon, the float nearest 1e-5, at its exact binary value on both sides. -/
def eps : EReal := Ideal.ofBits .f32 0x3727C5AC#32
/-- The float minus infinity, where the row maximum starts. -/
def ninf : EReal := Ideal.ofBits .f32 0xFF800000#32

def relu (v : EReal) : EReal := max v zero

/-- Layers 2 and 3: combine, then ReLU. -/
def layerRelu {M K N : Nat} (A X : Mat M K) (Wl : Mat N K) (b : Col N) (Wr : Mat N K) : Mat M N :=
  fun i => relu (combine (row A (i 0)) (row X (i 0)) Wl Wr b (i 1))

/-- Layer 4: combine only. -/
def layerLin {M K N : Nat} (A X : Mat M K) (Wl : Mat N K) (b : Col N) (Wr : Mat N K) : Mat M N :=
  fun i => combine (row A (i 0)) (row X (i 0)) Wl Wr b (i 1)

/-- Layer 1: combine, eval-mode batch norm (h - mean) * rsqrt(var + eps) * gamma + beta, ReLU. -/
def layerBn {M K N : Nat} (A X : Mat M K) (Wl : Mat N K) (b : Col N) (Wr : Mat N K) (gamma beta mean var : Col N) :
    Mat M N :=
  fun i => relu ((combine (row A (i 0)) (row X (i 0)) Wl Wr b (i 1) - mean (ix1 (i 1)))
      * Ideal.rsqrt (var (ix1 (i 1)) + eps) * gamma (ix1 (i 1)) + beta (ix1 (i 1)))

/-- The decoder's hidden row: ReLU of the first linear map. -/
def hidden {K N : Nat} (h : Fin K → EReal) (W1 : Mat N K) (b1 : Col N) : Fin N → EReal :=
  fun q => relu (dotT h W1 q + b1 (ix1 q))

/-- The decoder's logits of a row. -/
def logits {K N O : Nat} (h : Fin K → EReal) (W1 : Mat N K) (b1 : Col N) (W2 : Mat O N) (b2 : Col O) : Fin O → EReal :=
  fun c => dotT (hidden h W1 b1) W2 c + b2 (ix1 c)

/-- A row's maximum, folded from minus infinity. -/
def rowMax {O : Nat} (z : Fin O → EReal) : EReal := (Finset.univ : Finset (Fin O)).fold max ninf z

/-- The softmax of a row of logits, shifted by the row's maximum. -/
def softmax {O : Nat} (z : Fin O → EReal) (c : Fin O) : EReal :=
  Ideal.div (Ideal.exp (z c - rowMax z)) (∑ c' : Fin O, Ideal.exp (z c' - rowMax z))

/-- The decoder: linear, ReLU, linear, softmax. -/
def decoder {M K N O : Nat} (H : Mat M K) (W1 : Mat N K) (b1 : Col N) (W2 : Mat O N) (b2 : Col O) : Mat M O :=
  fun i => softmax (logits (row H (i 0)) W1 b1 W2 b2) (i 1)

/-- Folding `max` from a start value never goes below it, so taking the maximum with the start again changes nothing. -/
theorem max_start_fold {O : Nat} (s : EReal) (z : Fin O → EReal) :
    max s ((Finset.univ : Finset (Fin O)).fold max s z) = (Finset.univ : Finset (Fin O)).fold max s z :=
  max_eq_right (Finset.le_fold_max s |>.mpr (Or.inl le_rfl))

end Cert.Sage

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.KDots.lean ====
/-
  The kernel bodies' matrix products, entry by entry.

  Each of the five literal records of dimension numbers the bodies use contracts the left operand's axis 1 with the
  right operand's axis 0; for each, the product of a block with a transposed weight into the zero accumulator is, at
  (p, q), the sum over k of the block's row p times the weight's row q.
-/
import proofs.«164675_j61770219651287_1_alg».proof.Proof.Gen.KernelIdeal
import proofs.«164675_j61770219651287_1_alg».proof.Proof.LibMatmulRows
import Idealize.ShloMosaic.Lib.ValueLayout

noncomputable section

namespace Cert.KernelIdeal.Dots

open Cert.KernelIdeal Cert.KernelIdeal.Gen Idealize.ShloMosaic Idealize.ShloMosaic.ValueIdx

variable {φ₁ φ₂ : FTy}

theorem lhs0_S10000x1_S1x16 (i : S10000x16.Idx) (q : dot_S10000x1_S1x16_S10000x16_1_0_0_1_n_n.contr.Idx) : (dot_S10000x1_S1x16_S10000x16_1_0_0_1_n_n.lhsIdx i q 0).val = (i 0).val := by
  unfold DotDims.lhsIdx
  rw [dif_neg (show ¬(0 : Fin S10000x1.rank) ∈ dot_S10000x1_S1x16_S10000x16_1_0_0_1_n_n.lhsBatch by decide), dif_pos (show (0 : Fin S10000x1.rank) ∈ dot_S10000x1_S1x16_S10000x16_1_0_0_1_n_n.lhsNonContracting by decide)]
  rfl
theorem rhs1_S10000x1_S1x16 (i : S10000x16.Idx) (q : dot_S10000x1_S1x16_S10000x16_1_0_0_1_n_n.contr.Idx) : (dot_S10000x1_S1x16_S10000x16_1_0_0_1_n_n.rhsIdx i q 1).val = (i 1).val := by
  unfold DotDims.rhsIdx
  rw [dif_neg (show ¬(1 : Fin S1x16.rank) ∈ dot_S10000x1_S1x16_S10000x16_1_0_0_1_n_n.rhsBatch by decide), dif_pos (show (1 : Fin S1x16.rank) ∈ dot_S10000x1_S1x16_S10000x16_1_0_0_1_n_n.rhsNonContracting by decide)]
  rfl
/-- A block times a transposed weight, at (p, q). -/
theorem mm_S10000x1_S1x16 (a : FVec Ideal S10000x1 φ₁) (b : FVec Ideal S1x16 φ₂) (i : S10000x16.Idx) (L R : Fin 1 → EReal)
    (hl : ∀ k, a (ix2 (i 0) k) = L k) (hr : ∀ k, b (ix2 k (i 1)) = R k) :
    matmul dot_S10000x1_S1x16_S10000x16_1_0_0_1_n_n none a b (constant S10000x16 .f32 0x00000000#32) i = ∑ k : Fin 1, L k * R k :=
  MatmulRows.matmul_zero_rows dot_S10000x1_S1x16_S10000x16_1_0_0_1_n_n none rfl rfl rfl rfl lhs0_S10000x1_S1x16 rhs1_S10000x1_S1x16 a b i L R hl hr

theorem lhs0_S10000x16_S16x16 (i : S10000x16.Idx) (q : dot_S10000x16_S16x16_S10000x16_1_0_0_1_n_n.contr.Idx) : (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem rhs1_S10000x16_S16x16 (i : S10000x16.Idx) (q : dot_S10000x16_S16x16_S10000x16_1_0_0_1_n_n.contr.Idx) : (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl
/-- A block times a transposed weight, at (p, q). -/
theorem mm_S10000x16_S16x16 (a : FVec Ideal S10000x16 φ₁) (b : FVec Ideal S16x16 φ₂) (i : S10000x16.Idx) (L R : Fin 16 → EReal)
    (hl : ∀ k, a (ix2 (i 0) k) = L k) (hr : ∀ k, b (ix2 k (i 1)) = R k) :
    matmul dot_S10000x16_S16x16_S10000x16_1_0_0_1_n_n none a b (constant S10000x16 .f32 0x00000000#32) i = ∑ k : Fin 16, L k * R k :=
  MatmulRows.matmul_zero_rows dot_S10000x16_S16x16_S10000x16_1_0_0_1_n_n none rfl rfl rfl rfl lhs0_S10000x16_S16x16 rhs1_S10000x16_S16x16 a b i L R hl hr

theorem lhs0_S10000x16_S16x32 (i : S10000x32.Idx) (q : dot_S10000x16_S16x32_S10000x32_1_0_0_1_n_n.contr.Idx) : (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem rhs1_S10000x16_S16x32 (i : S10000x32.Idx) (q : dot_S10000x16_S16x32_S10000x32_1_0_0_1_n_n.contr.Idx) : (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl
/-- A block times a transposed weight, at (p, q). -/
theorem mm_S10000x16_S16x32 (a : FVec Ideal S10000x16 φ₁) (b : FVec Ideal S16x32 φ₂) (i : S10000x32.Idx) (L R : Fin 16 → EReal)
    (hl : ∀ k, a (ix2 (i 0) k) = L k) (hr : ∀ k, b (ix2 k (i 1)) = R k) :
    matmul dot_S10000x16_S16x32_S10000x32_1_0_0_1_n_n none a b (constant S10000x32 .f32 0x00000000#32) i = ∑ k : Fin 16, L k * R k :=
  MatmulRows.matmul_zero_rows dot_S10000x16_S16x32_S10000x32_1_0_0_1_n_n none rfl rfl rfl rfl lhs0_S10000x16_S16x32 rhs1_S10000x16_S16x32 a b i L R hl hr

theorem lhs0_S10000x32_S32x32 (i : S10000x32.Idx) (q : dot_S10000x32_S32x32_S10000x32_1_0_0_1_n_n.contr.Idx) : (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem rhs1_S10000x32_S32x32 (i : S10000x32.Idx) (q : dot_S10000x32_S32x32_S10000x32_1_0_0_1_n_n.contr.Idx) : (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl
/-- A block times a transposed weight, at (p, q). -/
theorem mm_S10000x32_S32x32 (a : FVec Ideal S10000x32 φ₁) (b : FVec Ideal S32x32 φ₂) (i : S10000x32.Idx) (L R : Fin 32 → EReal)
    (hl : ∀ k, a (ix2 (i 0) k) = L k) (hr : ∀ k, b (ix2 k (i 1)) = R k) :
    matmul dot_S10000x32_S32x32_S10000x32_1_0_0_1_n_n none a b (constant S10000x32 .f32 0x00000000#32) i = ∑ k : Fin 32, L k * R k :=
  MatmulRows.matmul_zero_rows dot_S10000x32_S32x32_S10000x32_1_0_0_1_n_n none rfl rfl rfl rfl lhs0_S10000x32_S32x32 rhs1_S10000x32_S32x32 a b i L R hl hr

theorem lhs0_S10000x32_S32x2 (i : S10000x2.Idx) (q : dot_S10000x32_S32x2_S10000x2_1_0_0_1_n_n.contr.Idx) : (dot_S10000x32_S32x2_S10000x2_1_0_0_1_n_n.lhsIdx i q 0).val = (i 0).val := by
  unfold DotDims.lhsIdx
  rw [dif_neg (show ¬(0 : Fin S10000x32.rank) ∈ dot_S10000x32_S32x2_S10000x2_1_0_0_1_n_n.lhsBatch by decide), dif_pos (show (0 : Fin S10000x32.rank) ∈ dot_S10000x32_S32x2_S10000x2_1_0_0_1_n_n.lhsNonContracting by decide)]
  rfl
theorem rhs1_S10000x32_S32x2 (i : S10000x2.Idx) (q : dot_S10000x32_S32x2_S10000x2_1_0_0_1_n_n.contr.Idx) : (dot_S10000x32_S32x2_S10000x2_1_0_0_1_n_n.rhsIdx i q 1).val = (i 1).val := by
  unfold DotDims.rhsIdx
  rw [dif_neg (show ¬(1 : Fin S32x2.rank) ∈ dot_S10000x32_S32x2_S10000x2_1_0_0_1_n_n.rhsBatch by decide), dif_pos (show (1 : Fin S32x2.rank) ∈ dot_S10000x32_S32x2_S10000x2_1_0_0_1_n_n.rhsNonContracting by decide)]
  rfl
/-- A block times a transposed weight, at (p, q). -/
theorem mm_S10000x32_S32x2 (a : FVec Ideal S10000x32 φ₁) (b : FVec Ideal S32x2 φ₂) (i : S10000x2.Idx) (L R : Fin 32 → EReal)
    (hl : ∀ k, a (ix2 (i 0) k) = L k) (hr : ∀ k, b (ix2 k (i 1)) = R k) :
    matmul dot_S10000x32_S32x2_S10000x2_1_0_0_1_n_n none a b (constant S10000x2 .f32 0x00000000#32) i = ∑ k : Fin 32, L k * R k :=
  MatmulRows.matmul_zero_rows dot_S10000x32_S32x2_S10000x2_1_0_0_1_n_n none rfl rfl rfl rfl lhs0_S10000x32_S32x2 rhs1_S10000x32_S32x2 a b i L R hl hr

end Cert.KernelIdeal.Dots

end
-- ==== Proof.Pay0.lean ====
/-
  What the body of the first SAGE layer computes, entry by entry.

  The features have one column, so each product is a single term. After the combine the body subtracts the running
  mean, multiplies by rsqrt(var + eps) and by gamma, adds beta (each a length-16 vector broadcast down the rows) and
  takes the maximum with zero.
-/
import proofs.«164675_j61770219651287_1_alg».proof.Proof.Gen.KernelIdeal.Skeleton
import proofs.«164675_j61770219651287_1_alg».proof.Proof.Spec
import proofs.«164675_j61770219651287_1_alg».proof.Proof.KDots

noncomputable section

namespace Cert.KernelIdeal.Pay

open Cert.KernelIdeal Cert.KernelIdeal.Gen Cert.KernelIdeal.Dots Cert.Sage
open Idealize.ShloMosaic Idealize.ShloMosaic.ValueIdx

/-- A length-16 vector, cast to one row and broadcast down a 10000-row block, read at (p, q): the vector at q. -/
theorem row16 (b : FVec Ideal S16 .f32) (p : Fin 10000) (q : Fin 16) :
    broadcastTo S10000x16 (shapeCast S1x16 b shapeCasts_S16_S1x16) broadcasts_S1x16_S10000x16 (ix2 p q) = b (ix1 q) :=
  (broadcastTo_1b_ab_apply _ _ p q).trans (shapeCast_a_1a_apply b _ 0 q)

/-- The aggregated one-column block (loaded through an identity cast) times the transposed 16 by 1 weight, at (p, q). -/
theorem prod1x16_cast (a : Vec Ideal S10000x1 .f32) (w : Vec Ideal S16x1 .f32) (p : Fin 10000) (q : Fin 16) :
    matmul (F := Ideal) dot_S10000x1_S1x16_S10000x16_1_0_0_1_n_n none
      (truncf .bf16 (shapeCast S10000x1 a shapeCasts_S10000x1_S10000x1) bitsLt_bf16_f32)
      (transpose S1x16 [1, 0] (truncf .bf16 w bitsLt_bf16_f32) transposes_S16x1_p1_0_S1x16)
      (constant S10000x16 .f32 0x00000000#32) (ix2 p q) = dotT (row a p) w q :=
  mm_S10000x1_S1x16 _ _ (ix2 p q) (row a p) (fun k => w (ix2 q k))
    (fun k => congrFun (shapeCast_self a shapeCasts_S10000x1_S10000x1) (ix2 p k))
    (fun k => transpose_ix2_apply _ _ k q)

/-- The node features' one-column block times the transposed 16 by 1 weight, at (p, q). -/
theorem prod1x16 (x : Vec Ideal S10000x1 .f32) (w : Vec Ideal S16x1 .f32) (p : Fin 10000) (q : Fin 16) :
    matmul (F := Ideal) dot_S10000x1_S1x16_S10000x16_1_0_0_1_n_n none
      (truncf .bf16 x bitsLt_bf16_f32)
      (transpose S1x16 [1, 0] (truncf .bf16 w bitsLt_bf16_f32) transposes_S16x1_p1_0_S1x16)
      (constant S10000x16 .f32 0x00000000#32) (ix2 p q) = dotT (row x p) w q :=
  mm_S10000x1_S1x16 _ _ (ix2 p q) (row x p) (fun k => w (ix2 q k))
    (fun k => rfl)
    (fun k => transpose_ix2_apply _ _ k q)

/-- The first layer's body is the batch-normed layer on its blocks. -/
theorem pay0_eq (a x : Vec Ideal S10000x1 .f32) (wl wr : Vec Ideal S16x1 .f32) (b gamma beta mean var : Vec Ideal S16 .f32) :
    k0_pay1 a x wl wr b gamma beta mean var = layerBn a x wl b wr gamma beta mean var := by
  funext y
  obtain ⟨p, q, rfl⟩ : ∃ (p : Fin 10000) (q : Fin 16), y = ix2 p q := ⟨y 0, y 1, eq_ix2 y⟩
  unfold k0_pay1
  exact congrArg₂ max
    (congrArg₂ (· + ·)
      (congrArg₂ (· * ·)
        (congrArg₂ (· * ·)
          (congrArg₂ (· - ·)
            (congrArg₂ (· + ·) (congrArg₂ (· + ·) (prod1x16_cast a wl p q) (prod1x16 x wr p q)) (row16 b p q))
            (row16 mean p q))
          (row16 _ p q))
        (row16 gamma p q))
      (row16 beta p q)) rfl

end Cert.KernelIdeal.Pay

end
-- ==== Proof.BlocksCommon.lean ====
/-
  Every load and store of the five bodies goes through a whole-block rectangle at zero offsets.
-/
import Idealize.ShloMosaic.Lib.Pipeline.Value

namespace Cert.KernelIdeal.Blocks

theorem hz2 : (![0, 0] : Fin 2 → Nat) = fun _ => 0 := funext fun a => by fin_cases a <;> rfl
theorem hz1 : (![0] : Fin 1 → Nat) = fun _ => 0 := funext fun a => by fin_cases a <;> rfl

end Cert.KernelIdeal.Blocks
-- ==== Proof.Blocks0.lean ====
/-
  From blocks to arrays, first SAGE layer (region 0).

  Ten grid points; point t fetches rows 10000 t … 10000 t + 9999 of the aggregated feature column and of the node
  feature column, the two 16 by 1 weights, the bias and the four batch-norm vectors whole, and writes the same rows of
  the 16-column output. The row blocks tile the output, so after the region the array is the layer applied to the
  whole arrays.
-/
import proofs.«164675_j61770219651287_1_alg».proof.Proof.Gen.KernelIdeal.Frame
import proofs.«164675_j61770219651287_1_alg».proof.Proof.Pay0
import proofs.«164675_j61770219651287_1_alg».proof.Proof.BlocksCommon
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 0 -/

/-- The index maps of region 0 over its ten grid points. -/
theorem idx0 : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

set_option maxHeartbeats 2000000 in
/-- What grid point `t` writes back is block `t` of the layer applied to the whole arrays as the region finds them. -/
theorem flushed0 (c : Dev nD) (t : Fin cfg0.N) :
    (dat0 (F := Ideal) V c).flushed 9 t = ((cfg0.win 9).blk t).view.read (Elt Ideal)
      (layerBn (M := 100000) (V c main_v23) (V c main_arg0) (V c main_arg2) (V c main_arg3) (V c main_arg4) (V c main_arg5) (V c main_arg6) (V c main_arg7) (V c main_arg8)) := by
  show (cfg0.win 9).cut (grid0.coords t) ((dat0 (F := Ideal) V c).after 9 t) = _
  rw [after0_9]
  unfold out0_9
  rw [View.canon_unit_zero hz2]
  simp only [View.ld_unit_zero (S := S10000x1) hz2, View.ld_unit_zero (S := S16x1) hz2, View.ld_unit_zero (S := S16) hz1]
  rw [Pay.pay0_eq]
  obtain ⟨e00, e01, e10, e11, e20, e21, e30, e40, e41, e50, e60, e70, e80, eo0, eo1⟩ := idx0 t
  funext j
  show layerBn (iblk0 V c 0 t) (iblk0 V c 1 t) (iblk0 V c 2 t) (iblk0 V c 3 t) (iblk0 V c 4 t) (iblk0 V c 5 t) (iblk0 V c 6 t) (iblk0 V c 7 t) (iblk0 V c 8 t) j
    = layerBn (M := 100000) (V c main_v23) (V c main_arg0) (V c main_arg2) (V c main_arg3) (V c main_arg4) (V c main_arg5) (V c main_arg6) (V c main_arg7) (V c main_arg8) (((cfg0.win 9).blk t).view.emb j)
  have hA : row (iblk0 V c 0 t) (j 0) = row (r := 100000) (V c main_v23) ((((cfg0.win 9).blk t).view.emb j) 0) :=
    funext fun k => congrArg (V c main_v23) (funext fun a => Fin.ext (by
      match a with
      | ⟨0, _⟩ => show win0_0.index t (0 : Fin 2) * 10000 + 1 * (j 0).val = win0_9.index t (0 : Fin 2) * 10000 + 1 * (j 0).val; omega
      | ⟨1, _⟩ => show win0_0.index t (1 : Fin 2) * 1 + 1 * k.val = k.val; omega))
  have hX : row (iblk0 V c 1 t) (j 0) = row (r := 100000) (V c main_arg0) ((((cfg0.win 9).blk t).view.emb j) 0) :=
    funext fun k => congrArg (V c main_arg0) (funext fun a => Fin.ext (by
      match a with
      | ⟨0, _⟩ => show win0_1.index t (0 : Fin 2) * 10000 + 1 * (j 0).val = win0_9.index t (0 : Fin 2) * 10000 + 1 * (j 0).val; omega
      | ⟨1, _⟩ => show win0_1.index t (1 : Fin 2) * 1 + 1 * k.val = k.val; omega))
  have hW2 : iblk0 V c 2 t = V c main_arg2 :=
    funext fun y => congrArg (V c main_arg2) (funext fun a => Fin.ext (by
      match a with
      | ⟨0, _⟩ => show win0_2.index t (0 : Fin 2) * 16 + 1 * (y 0).val = (y 0).val; omega
      | ⟨1, _⟩ => show win0_2.index t (1 : Fin 2) * 1 + 1 * (y 1).val = (y 1).val; omega))
  have hW3 : iblk0 V c 3 t = V c main_arg3 :=
    funext fun y => congrArg (V c main_arg3) (funext fun a => Fin.ext (by
      match a with
      | ⟨0, _⟩ => show win0_3.index t (0 : Fin 1) * 16 + 1 * (y 0).val = (y 0).val; omega))
  have hW4 : iblk0 V c 4 t = V c main_arg4 :=
    funext fun y => congrArg (V c main_arg4) (funext fun a => Fin.ext (by
      match a with
      | ⟨0, _⟩ => show win0_4.index t (0 : Fin 2) * 16 + 1 * (y 0).val = (y 0).val; omega
      | ⟨1, _⟩ => show win0_4.index t (1 : Fin 2) * 1 + 1 * (y 1).val = (y 1).val; omega))
  have hW5 : iblk0 V c 5 t = V c main_arg5 :=
    funext fun y => congrArg (V c main_arg5) (funext fun a => Fin.ext (by
      match a with
      | ⟨0, _⟩ => show win0_5.index t (0 : Fin 1) * 16 + 1 * (y 0).val = (y 0).val; omega))
  have hW6 : iblk0 V c 6 t = V c main_arg6 :=
    funext fun y => congrArg (V c main_arg6) (funext fun a => Fin.ext (by
      match a with
      | ⟨0, _⟩ => show win0_6.index t (0 : Fin 1) * 16 + 1 * (y 0).val = (y 0).val; omega))
  have hW7 : iblk0 V c 7 t = V c main_arg7 :=
    funext fun y => congrArg (V c main_arg7) (funext fun a => Fin.ext (by
      match a with
      | ⟨0, _⟩ => show win0_7.index t (0 : Fin 1) * 16 + 1 * (y 0).val = (y 0).val; omega))
  have hW8 : iblk0 V c 8 t = V c main_arg8 :=
    funext fun y => congrArg (V c main_arg8) (funext fun a => Fin.ext (by
      match a with
      | ⟨0, _⟩ => show win0_8.index t (0 : Fin 1) * 16 + 1 * (y 0).val = (y 0).val; omega))
  have hq : (((cfg0.win 9).blk t).view.emb j) 1 = j 1 :=
    Fin.ext (by show win0_9.index t (1 : Fin 2) * 16 + 1 * (j 1).val = (j 1).val; omega)
  unfold layerBn
  rw [hA, hX, hW2, hW3, hW4, hW5, hW6, hW7, hW8, hq]

/-- An index of the output array is in point `t`'s block iff each coordinate is in the block's range on its axis. -/
theorem mem_blk0 (t : Fin cfg0.N) (i : S100000x16.Idx) :
    i ∈ ((cfg0.win 9).blk t).view.set ↔ ∀ a : Fin 2, win0_9.index t a * S10000x16.size a ≤ (i a).val ∧ (i a).val < win0_9.index t a * S10000x16.size a + S10000x16.size a := by
  show i ∈ ((View.whole main_v24).slice (win0_9.rect t)).set ↔ _
  rw [View.set_slice_whole, Rect.mem_set_unit]
  exact Iff.rfl

/-- Row r of the output is written by the point r / 10000: the ten row blocks tile the array. -/
theorem cover0 (i : S100000x16.Idx) :
    ∃ t : Fin cfg0.N, (cfg0.win 9).flush t = true ∧ i ∈ ((cfg0.win 9).blk t).view.set := by
  have hi0 : (i 0).val < 100000 := (i 0).isLt
  have hi1 : (i 1).val < 16 := (i 1).isLt
  have hN : grid0.N = 10 := N_0
  have hlt : (i 0).val / 10000 < grid0.N := by omega
  refine ⟨⟨(i 0).val / 10000, hlt⟩, flush0_9 _, ?_⟩
  rw [mem_blk0]
  obtain ⟨e00, e01, e10, e11, e20, e21, e30, e40, e41, e50, e60, e70, e80, eo0, eo1⟩ := idx0 ⟨(i 0).val / 10000, hlt⟩
  have eo0' : win0_9.index ⟨(i 0).val / 10000, hlt⟩ (0 : Fin 2) = (i 0).val / 10000 := eo0
  intro a
  match a with
  | ⟨0, _⟩ =>
    show win0_9.index ⟨(i 0).val / 10000, hlt⟩ (0 : Fin 2) * 10000 ≤ (i 0).val ∧ (i 0).val < win0_9.index ⟨(i 0).val / 10000, hlt⟩ (0 : Fin 2) * 10000 + 10000
    omega
  | ⟨1, _⟩ =>
    show win0_9.index ⟨(i 0).val / 10000, hlt⟩ (1 : Fin 2) * 16 ≤ (i 1).val ∧ (i 1).val < win0_9.index ⟨(i 0).val / 10000, hlt⟩ (1 : Fin 2) * 16 + 16
    omega

/-- The output array after the region: the layer of the arrays the region was entered with. -/
theorem final0 (c : Dev nD) :
    (dat0 (F := Ideal) V c).arrAt 9 cfg0.N = layerBn (M := 100000) (V c main_v23) (V c main_arg0) (V c main_arg2) (V c main_arg3) (V c main_arg4) (V c main_arg5) (V c main_arg6) (V c main_arg7) (V c main_arg8) :=
  (dat0 (F := Ideal) V c).arrAt_eq_of_cover 9 _ (fun t _ => flushed0 V c t) (cover0)

end Cert.KernelIdeal.Blocks

end
-- ==== Proof.Pay12.lean ====
/-
  What the bodies of the second and third SAGE layers compute, entry by entry.

  The body loads a 10000-row block `a` of aggregated features, the matching block `x` of node features, the two
  16 by 16 weights and the bias, casts the blocks and weights to bf16 (the identity on the extended reals),
  multiplies each block by its transposed weight on the matrix unit into a zero accumulator, adds the two products,
  adds the bias row to every row and takes the maximum with zero. At (p, q) that is
  max (a[p, :] · Wl[q, :] + x[p, :] · Wr[q, :] + b[q]) 0.
-/
import proofs.«164675_j61770219651287_1_alg».proof.Proof.Gen.KernelIdeal.Skeleton
import proofs.«164675_j61770219651287_1_alg».proof.Proof.Spec
import proofs.«164675_j61770219651287_1_alg».proof.Proof.KDots

noncomputable section

namespace Cert.KernelIdeal.Pay

open Cert.KernelIdeal Cert.KernelIdeal.Gen Cert.KernelIdeal.Dots Cert.Sage
open Idealize.ShloMosaic Idealize.ShloMosaic.ValueIdx

/-- The bias, cast to one row and broadcast down the block, read at (p, q): the bias at q. -/
theorem bias_row16 (b : Vec Ideal S16 .f32) (p : Fin 10000) (q : Fin 16) :
    broadcastTo S10000x16 (shapeCast S1x16 b shapeCasts_S16_S1x16) broadcasts_S1x16_S10000x16 (ix2 p q) = b (ix1 q) :=
  (broadcastTo_1b_ab_apply _ _ p q).trans (shapeCast_a_1a_apply b _ 0 q)

/-- A block times a transposed 16 by 16 weight, at (p, q): row p of the block against row q of the weight. -/
theorem prod16x16 (a : Vec Ideal S10000x16 .f32) (w : Vec Ideal S16x16 .f32) (p : Fin 10000) (q : Fin 16) :
    matmul (F := Ideal) dot_S10000x16_S16x16_S10000x16_1_0_0_1_n_n none
      (truncf .bf16 (shapeCast S10000x16 a shapeCasts_S10000x16_S10000x16) bitsLt_bf16_f32)
      (transpose S16x16 [1, 0] (truncf .bf16 w bitsLt_bf16_f32) transposes_S16x16_p1_0_S16x16)
      (constant S10000x16 .f32 0x00000000#32) (ix2 p q) = dotT (row a p) w q :=
  mm_S10000x16_S16x16 _ _ (ix2 p q) (row a p) (fun k => w (ix2 q k))
    (fun k => congrFun (shapeCast_self a shapeCasts_S10000x16_S10000x16) (ix2 p k))
    (fun k => transpose_ix2_apply _ _ k q)

/-- The second layer's body is the layer on its blocks. -/
theorem pay1_eq (a x : Vec Ideal S10000x16 .f32) (wl wr : Vec Ideal S16x16 .f32) (b : Vec Ideal S16 .f32) :
    k1_pay1 a x wl wr b = layerRelu a x wl b wr := by
  funext y
  obtain ⟨p, q, rfl⟩ : ∃ (p : Fin 10000) (q : Fin 16), y = ix2 p q := ⟨y 0, y 1, eq_ix2 y⟩
  unfold k1_pay1
  exact congrArg₂ max
    (congrArg₂ (· + ·) (congrArg₂ (· + ·) (prod16x16 a wl p q) (prod16x16 x wr p q)) (bias_row16 b p q)) rfl

/-- The third layer's body is the same text. -/
theorem pay2_eq (a x : Vec Ideal S10000x16 .f32) (wl wr : Vec Ideal S16x16 .f32) (b : Vec Ideal S16 .f32) :
    k2_pay1 a x wl wr b = layerRelu a x wl b wr := by
  funext y
  obtain ⟨p, q, rfl⟩ : ∃ (p : Fin 10000) (q : Fin 16), y = ix2 p q := ⟨y 0, y 1, eq_ix2 y⟩
  unfold k2_pay1
  exact congrArg₂ max
    (congrArg₂ (· + ·) (congrArg₂ (· + ·) (prod16x16 a wl p q) (prod16x16 x wr p q)) (bias_row16 b p q)) rfl

end Cert.KernelIdeal.Pay

end
-- ==== Proof.Blocks1.lean ====
/-
  From blocks to arrays, second SAGE layer (region 1).

  The region is a grid of ten points; point t fetches rows 10000 t … 10000 t + 9999 of the aggregated features
  and of the node features, the two weights and the bias whole, and writes the same rows of the output. The ten
  row blocks tile the output array, so after the region the array is the layer applied to the whole arrays.
-/
import proofs.«164675_j61770219651287_1_alg».proof.Proof.Gen.KernelIdeal.Frame
import proofs.«164675_j61770219651287_1_alg».proof.Proof.Pay12
import proofs.«164675_j61770219651287_1_alg».proof.Proof.BlocksCommon
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 1 -/

/-- The index maps of region 1 over its ten grid points: the two row-blocked inputs move with the output's row block;
    the weights and the bias are fetched whole. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 2000000 in
/-- What grid point `t` writes back is block `t` of the layer applied to the whole arrays as the region finds them:
    a row of the output depends on the same row of the two feature arrays and on the whole weights. -/
theorem flushed1 (c : Dev nD) (t : Fin cfg1.N) :
    (dat1 (F := Ideal) V c).flushed 5 t = ((cfg1.win 5).blk t).view.read (Elt Ideal)
      (layerRelu (M := 100000) (V c main_v36) (V c main_v24) (V c main_arg9) (V c main_arg10) (V c main_arg11)) := by
  show (cfg1.win 5).cut (grid1.coords t) ((dat1 (F := Ideal) V c).after 5 t) = _
  rw [after1_5]
  unfold out1_5
  rw [View.canon_unit_zero hz2]
  simp only [View.ld_unit_zero (S := S10000x16) hz2, View.ld_unit_zero (S := S16x16) hz2, View.ld_unit_zero (S := S16) hz1]
  rw [Pay.pay1_eq]
  obtain ⟨e00, e01, e10, e11, e20, e21, e30, e40, e41, e50, e51⟩ := idx1 t
  funext j
  show layerRelu (iblk1 V c 0 t) (iblk1 V c 1 t) (iblk1 V c 2 t) (iblk1 V c 3 t) (iblk1 V c 4 t) j
    = layerRelu (M := 100000) (V c main_v36) (V c main_v24) (V c main_arg9) (V c main_arg10) (V c main_arg11) (((cfg1.win 5).blk t).view.emb j)
  have hA : row (iblk1 V c 0 t) (j 0) = row (r := 100000) (V c main_v36) ((((cfg1.win 5).blk t).view.emb j) 0) :=
    funext fun k => congrArg (V c main_v36) (funext fun a => Fin.ext (by
      match a with
      | ⟨0, _⟩ => show win1_0.index t (0 : Fin 2) * 10000 + 1 * (j 0).val = win1_5.index t (0 : Fin 2) * 10000 + 1 * (j 0).val; omega
      | ⟨1, _⟩ => show win1_0.index t (1 : Fin 2) * 16 + 1 * k.val = k.val; omega))
  have hX : row (iblk1 V c 1 t) (j 0) = row (r := 100000) (V c main_v24) ((((cfg1.win 5).blk t).view.emb j) 0) :=
    funext fun k => congrArg (V c main_v24) (funext fun a => Fin.ext (by
      match a with
      | ⟨0, _⟩ => show win1_1.index t (0 : Fin 2) * 10000 + 1 * (j 0).val = win1_5.index t (0 : Fin 2) * 10000 + 1 * (j 0).val; omega
      | ⟨1, _⟩ => show win1_1.index t (1 : Fin 2) * 16 + 1 * k.val = k.val; omega))
  have hWl : iblk1 V c 2 t = V c main_arg9 :=
    funext fun y => congrArg (V c main_arg9) (funext fun a => Fin.ext (by
      match a with
      | ⟨0, _⟩ => show win1_2.index t (0 : Fin 2) * 16 + 1 * (y 0).val = (y 0).val; omega
      | ⟨1, _⟩ => show win1_2.index t (1 : Fin 2) * 16 + 1 * (y 1).val = (y 1).val; omega))
  have hB : iblk1 V c 3 t = V c main_arg10 :=
    funext fun y => congrArg (V c main_arg10) (funext fun a => Fin.ext (by
      match a with
      | ⟨0, _⟩ => show win1_3.index t (0 : Fin 1) * 16 + 1 * (y 0).val = (y 0).val; omega))
  have hWr : iblk1 V c 4 t = V c main_arg11 :=
    funext fun y => congrArg (V c main_arg11) (funext fun a => Fin.ext (by
      match a with
      | ⟨0, _⟩ => show win1_4.index t (0 : Fin 2) * 16 + 1 * (y 0).val = (y 0).val; omega
      | ⟨1, _⟩ => show win1_4.index t (1 : Fin 2) * 16 + 1 * (y 1).val = (y 1).val; omega))
  have hq : (((cfg1.win 5).blk t).view.emb j) 1 = j 1 :=
    Fin.ext (by show win1_5.index t (1 : Fin 2) * 16 + 1 * (j 1).val = (j 1).val; omega)
  unfold layerRelu
  rw [hA, hX, hWl, hB, hWr, hq]

/-- An index of the output array is in point `t`'s block iff each coordinate is in the block's range on its axis. -/
theorem mem_blk1 (t : Fin cfg1.N) (i : S100000x16.Idx) :
    i ∈ ((cfg1.win 5).blk t).view.set ↔ ∀ a : Fin 2, win1_5.index t a * S10000x16.size a ≤ (i a).val ∧ (i a).val < win1_5.index t a * S10000x16.size a + S10000x16.size a := by
  show i ∈ ((View.whole main_v37).slice (win1_5.rect t)).set ↔ _
  rw [View.set_slice_whole, Rect.mem_set_unit]
  exact Iff.rfl

/-- Row r of the output is written by the point r / 10000: the ten row blocks tile the array. -/
theorem cover1 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : grid1.N = 10 := N_1
  have hlt : (i 0).val / 10000 < grid1.N := by omega
  refine ⟨⟨(i 0).val / 10000, hlt⟩, flush1_5 _, ?_⟩
  rw [mem_blk1]
  obtain ⟨e00, e01, e10, e11, e20, e21, e30, e40, e41, e50, e51⟩ := idx1 ⟨(i 0).val / 10000, hlt⟩
  have e50' : win1_5.index ⟨(i 0).val / 10000, hlt⟩ (0 : Fin 2) = (i 0).val / 10000 := e50
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    omega
  | ⟨1, _⟩ =>
    show win1_5.index ⟨(i 0).val / 10000, hlt⟩ (1 : Fin 2) * 16 ≤ (i 1).val ∧ (i 1).val < win1_5.index ⟨(i 0).val / 10000, hlt⟩ (1 : Fin 2) * 16 + 16
    omega

/-- The output array after the region: the layer of the arrays the region was entered with. -/
theorem final1 (c : Dev nD) :
    (dat1 (F := Ideal) V c).arrAt 5 cfg1.N
      = layerRelu (M := 100000) (V c main_v36) (V c main_v24) (V c main_arg9) (V c main_arg10) (V c main_arg11) :=
  (dat1 (F := Ideal) V c).arrAt_eq_of_cover 5 _ (fun t _ => flushed1 V c t) (cover1)

end Cert.KernelIdeal.Blocks

end
-- ==== Proof.Blocks2.lean ====
/-
  From blocks to arrays, third SAGE layer (region 2).

  The region is a grid of ten points; point t fetches rows 10000 t … 10000 t + 9999 of the aggregated features
  and of the node features, the two weights and the bias whole, and writes the same rows of the output. The ten
  row blocks tile the output array, so after the region the array is the layer applied to the whole arrays.
-/
import proofs.«164675_j61770219651287_1_alg».proof.Proof.Gen.KernelIdeal.Frame
import proofs.«164675_j61770219651287_1_alg».proof.Proof.Pay12
import proofs.«164675_j61770219651287_1_alg».proof.Proof.BlocksCommon
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 2 -/

/-- The index maps of region 2 over its ten grid points: the two row-blocked inputs move with the output's row block;
    the weights and the bias are fetched whole. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 2000000 in
/-- What grid point `t` writes back is block `t` of the layer applied to the whole arrays as the region finds them:
    a row of the output depends on the same row of the two feature arrays and on the whole weights. -/
theorem flushed2 (c : Dev nD) (t : Fin cfg2.N) :
    (dat2 (F := Ideal) V c).flushed 5 t = ((cfg2.win 5).blk t).view.read (Elt Ideal)
      (layerRelu (M := 100000) (V c main_v49) (V c main_v37) (V c main_arg12) (V c main_arg13) (V c main_arg14)) := by
  show (cfg2.win 5).cut (grid2.coords t) ((dat2 (F := Ideal) V c).after 5 t) = _
  rw [after2_5]
  unfold out2_5
  rw [View.canon_unit_zero hz2]
  simp only [View.ld_unit_zero (S := S10000x16) hz2, View.ld_unit_zero (S := S16x16) hz2, View.ld_unit_zero (S := S16) hz1]
  rw [Pay.pay2_eq]
  obtain ⟨e00, e01, e10, e11, e20, e21, e30, e40, e41, e50, e51⟩ := idx2 t
  funext j
  show layerRelu (iblk2 V c 0 t) (iblk2 V c 1 t) (iblk2 V c 2 t) (iblk2 V c 3 t) (iblk2 V c 4 t) j
    = layerRelu (M := 100000) (V c main_v49) (V c main_v37) (V c main_arg12) (V c main_arg13) (V c main_arg14) (((cfg2.win 5).blk t).view.emb j)
  have hA : row (iblk2 V c 0 t) (j 0) = row (r := 100000) (V c main_v49) ((((cfg2.win 5).blk t).view.emb j) 0) :=
    funext fun k => congrArg (V c main_v49) (funext fun a => Fin.ext (by
      match a with
      | ⟨0, _⟩ => show win2_0.index t (0 : Fin 2) * 10000 + 1 * (j 0).val = win2_5.index t (0 : Fin 2) * 10000 + 1 * (j 0).val; omega
      | ⟨1, _⟩ => show win2_0.index t (1 : Fin 2) * 16 + 1 * k.val = k.val; omega))
  have hX : row (iblk2 V c 1 t) (j 0) = row (r := 100000) (V c main_v37) ((((cfg2.win 5).blk t).view.emb j) 0) :=
    funext fun k => congrArg (V c main_v37) (funext fun a => Fin.ext (by
      match a with
      | ⟨0, _⟩ => show win2_1.index t (0 : Fin 2) * 10000 + 1 * (j 0).val = win2_5.index t (0 : Fin 2) * 10000 + 1 * (j 0).val; omega
      | ⟨1, _⟩ => show win2_1.index t (1 : Fin 2) * 16 + 1 * k.val = k.val; omega))
  have hWl : iblk2 V c 2 t = V c main_arg12 :=
    funext fun y => congrArg (V c main_arg12) (funext fun a => Fin.ext (by
      match a with
      | ⟨0, _⟩ => show win2_2.index t (0 : Fin 2) * 16 + 1 * (y 0).val = (y 0).val; omega
      | ⟨1, _⟩ => show win2_2.index t (1 : Fin 2) * 16 + 1 * (y 1).val = (y 1).val; omega))
  have hB : iblk2 V c 3 t = V c main_arg13 :=
    funext fun y => congrArg (V c main_arg13) (funext fun a => Fin.ext (by
      match a with
      | ⟨0, _⟩ => show win2_3.index t (0 : Fin 1) * 16 + 1 * (y 0).val = (y 0).val; omega))
  have hWr : iblk2 V c 4 t = V c main_arg14 :=
    funext fun y => congrArg (V c main_arg14) (funext fun a => Fin.ext (by
      match a with
      | ⟨0, _⟩ => show win2_4.index t (0 : Fin 2) * 16 + 1 * (y 0).val = (y 0).val; omega
      | ⟨1, _⟩ => show win2_4.index t (1 : Fin 2) * 16 + 1 * (y 1).val = (y 1).val; omega))
  have hq : (((cfg2.win 5).blk t).view.emb j) 1 = j 1 :=
    Fin.ext (by show win2_5.index t (1 : Fin 2) * 16 + 1 * (j 1).val = (j 1).val; omega)
  unfold layerRelu
  rw [hA, hX, hWl, hB, hWr, hq]

/-- An index of the output array is in point `t`'s block iff each coordinate is in the block's range on its axis. -/
theorem mem_blk2 (t : Fin cfg2.N) (i : S100000x16.Idx) :
    i ∈ ((cfg2.win 5).blk t).view.set ↔ ∀ a : Fin 2, win2_5.index t a * S10000x16.size a ≤ (i a).val ∧ (i a).val < win2_5.index t a * S10000x16.size a + S10000x16.size a := by
  show i ∈ ((View.whole main_v50).slice (win2_5.rect t)).set ↔ _
  rw [View.set_slice_whole, Rect.mem_set_unit]
  exact Iff.rfl

/-- Row r of the output is written by the point r / 10000: the ten row blocks tile the array. -/
theorem cover2 (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : grid2.N = 10 := N_2
  have hlt : (i 0).val / 10000 < grid2.N := by omega
  refine ⟨⟨(i 0).val / 10000, hlt⟩, flush2_5 _, ?_⟩
  rw [mem_blk2]
  obtain ⟨e00, e01, e10, e11, e20, e21, e30, e40, e41, e50, e51⟩ := idx2 ⟨(i 0).val / 10000, hlt⟩
  have e50' : win2_5.index ⟨(i 0).val / 10000, hlt⟩ (0 : Fin 2) = (i 0).val / 10000 := e50
  intro a
  match a with
  | ⟨0, _⟩ =>
    show win2_5.index ⟨(i 0).val / 10000, hlt⟩ (0 : Fin 2) * 10000 ≤ (i 0).val ∧ (i 0).val < win2_5.index ⟨(i 0).val / 10000, hlt⟩ (0 : Fin 2) * 10000 + 10000
    omega
  | ⟨1, _⟩ =>
    show win2_5.index ⟨(i 0).val / 10000, hlt⟩ (1 : Fin 2) * 16 ≤ (i 1).val ∧ (i 1).val < win2_5.index ⟨(i 0).val / 10000, hlt⟩ (1 : Fin 2) * 16 + 16
    omega

/-- The output array after the region: the layer of the arrays the region was entered with. -/
theorem final2 (c : Dev nD) :
    (dat2 (F := Ideal) V c).arrAt 5 cfg2.N
      = layerRelu (M := 100000) (V c main_v49) (V c main_v37) (V c main_arg12) (V c main_arg13) (V c main_arg14) :=
  (dat2 (F := Ideal) V c).arrAt_eq_of_cover 5 _ (fun t _ => flushed2 V c t) (cover2)

end Cert.KernelIdeal.Blocks

end
-- ==== Proof.Pay3.lean ====
/-
  What the body of the fourth SAGE layer computes, entry by entry: the same as layers two and three with 32 output
  columns and no ReLU. At (p, q): a[p, :] · Wl[q, :] + x[p, :] · Wr[q, :] + b[q].
-/
import proofs.«164675_j61770219651287_1_alg».proof.Proof.Gen.KernelIdeal.Skeleton
import proofs.«164675_j61770219651287_1_alg».proof.Proof.Spec
import proofs.«164675_j61770219651287_1_alg».proof.Proof.KDots

noncomputable section

namespace Cert.KernelIdeal.Pay

open Cert.KernelIdeal Cert.KernelIdeal.Gen Cert.KernelIdeal.Dots Cert.Sage
open Idealize.ShloMosaic Idealize.ShloMosaic.ValueIdx

/-- A length-32 bias, cast to one row and broadcast down a 10000-row block, read at (p, q): the bias at q. -/
theorem bias_row32 (b : Vec Ideal S32 .f32) (p : Fin 10000) (q : Fin 32) :
    broadcastTo S10000x32 (shapeCast S1x32 b shapeCasts_S32_S1x32) broadcasts_S1x32_S10000x32 (ix2 p q) = b (ix1 q) :=
  (broadcastTo_1b_ab_apply _ _ p q).trans (shapeCast_a_1a_apply b _ 0 q)

/-- A 16-column block times a transposed 32 by 16 weight, at (p, q). -/
theorem prod16x32 (a : Vec Ideal S10000x16 .f32) (w : Vec Ideal S32x16 .f32) (p : Fin 10000) (q : Fin 32) :
    matmul (F := Ideal) dot_S10000x16_S16x32_S10000x32_1_0_0_1_n_n none
      (truncf .bf16 (shapeCast S10000x16 a shapeCasts_S10000x16_S10000x16) bitsLt_bf16_f32)
      (transpose S16x32 [1, 0] (truncf .bf16 w bitsLt_bf16_f32) transposes_S32x16_p1_0_S16x32)
      (constant S10000x32 .f32 0x00000000#32) (ix2 p q) = dotT (row a p) w q :=
  mm_S10000x16_S16x32 _ _ (ix2 p q) (row a p) (fun k => w (ix2 q k))
    (fun k => congrFun (shapeCast_self a shapeCasts_S10000x16_S10000x16) (ix2 p k))
    (fun k => transpose_ix2_apply _ _ k q)

/-- The fourth layer's body is the linear layer on its blocks. -/
theorem pay3_eq (a x : Vec Ideal S10000x16 .f32) (wl wr : Vec Ideal S32x16 .f32) (b : Vec Ideal S32 .f32) :
    k3_pay1 a x wl wr b = layerLin a x wl b wr := by
  funext y
  obtain ⟨p, q, rfl⟩ : ∃ (p : Fin 10000) (q : Fin 32), y = ix2 p q := ⟨y 0, y 1, eq_ix2 y⟩
  unfold k3_pay1
  exact congrArg₂ (· + ·) (congrArg₂ (· + ·) (prod16x32 a wl p q) (prod16x32 x wr p q)) (bias_row32 b p q)

end Cert.KernelIdeal.Pay

end
-- ==== Proof.Blocks3.lean ====
/-
  From blocks to arrays, fourth SAGE layer (region 3), 32 output columns.

  The region is a grid of ten points; point t fetches rows 10000 t … 10000 t + 9999 of the aggregated features
  and of the node features, the two weights and the bias whole, and writes the same rows of the output. The ten
  row blocks tile the output array, so after the region the array is the layer applied to the whole arrays.
-/
import proofs.«164675_j61770219651287_1_alg».proof.Proof.Gen.KernelIdeal.Frame
import proofs.«164675_j61770219651287_1_alg».proof.Proof.Pay3
import proofs.«164675_j61770219651287_1_alg».proof.Proof.BlocksCommon
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 3 -/

/-- The index maps of region 3 over its ten grid points: the two row-blocked inputs move with the output's row block;
    the weights and the bias are fetched whole. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 2000000 in
/-- What grid point `t` writes back is block `t` of the layer applied to the whole arrays as the region finds them:
    a row of the output depends on the same row of the two feature arrays and on the whole weights. -/
theorem flushed3 (c : Dev nD) (t : Fin cfg3.N) :
    (dat3 (F := Ideal) V c).flushed 5 t = ((cfg3.win 5).blk t).view.read (Elt Ideal)
      (layerLin (M := 100000) (V c main_v62) (V c main_v50) (V c main_arg15) (V c main_arg16) (V c main_arg17)) := by
  show (cfg3.win 5).cut (grid3.coords t) ((dat3 (F := Ideal) V c).after 5 t) = _
  rw [after3_5]
  unfold out3_5
  rw [View.canon_unit_zero hz2]
  simp only [View.ld_unit_zero (S := S10000x16) hz2, View.ld_unit_zero (S := S32x16) hz2, View.ld_unit_zero (S := S32) hz1]
  rw [Pay.pay3_eq]
  obtain ⟨e00, e01, e10, e11, e20, e21, e30, e40, e41, e50, e51⟩ := idx3 t
  funext j
  show layerLin (iblk3 V c 0 t) (iblk3 V c 1 t) (iblk3 V c 2 t) (iblk3 V c 3 t) (iblk3 V c 4 t) j
    = layerLin (M := 100000) (V c main_v62) (V c main_v50) (V c main_arg15) (V c main_arg16) (V c main_arg17) (((cfg3.win 5).blk t).view.emb j)
  have hA : row (iblk3 V c 0 t) (j 0) = row (r := 100000) (V c main_v62) ((((cfg3.win 5).blk t).view.emb j) 0) :=
    funext fun k => congrArg (V c main_v62) (funext fun a => Fin.ext (by
      match a with
      | ⟨0, _⟩ => show win3_0.index t (0 : Fin 2) * 10000 + 1 * (j 0).val = win3_5.index t (0 : Fin 2) * 10000 + 1 * (j 0).val; omega
      | ⟨1, _⟩ => show win3_0.index t (1 : Fin 2) * 16 + 1 * k.val = k.val; omega))
  have hX : row (iblk3 V c 1 t) (j 0) = row (r := 100000) (V c main_v50) ((((cfg3.win 5).blk t).view.emb j) 0) :=
    funext fun k => congrArg (V c main_v50) (funext fun a => Fin.ext (by
      match a with
      | ⟨0, _⟩ => show win3_1.index t (0 : Fin 2) * 10000 + 1 * (j 0).val = win3_5.index t (0 : Fin 2) * 10000 + 1 * (j 0).val; omega
      | ⟨1, _⟩ => show win3_1.index t (1 : Fin 2) * 16 + 1 * k.val = k.val; omega))
  have hWl : iblk3 V c 2 t = V c main_arg15 :=
    funext fun y => congrArg (V c main_arg15) (funext fun a => Fin.ext (by
      match a with
      | ⟨0, _⟩ => show win3_2.index t (0 : Fin 2) * 32 + 1 * (y 0).val = (y 0).val; omega
      | ⟨1, _⟩ => show win3_2.index t (1 : Fin 2) * 16 + 1 * (y 1).val = (y 1).val; omega))
  have hB : iblk3 V c 3 t = V c main_arg16 :=
    funext fun y => congrArg (V c main_arg16) (funext fun a => Fin.ext (by
      match a with
      | ⟨0, _⟩ => show win3_3.index t (0 : Fin 1) * 32 + 1 * (y 0).val = (y 0).val; omega))
  have hWr : iblk3 V c 4 t = V c main_arg17 :=
    funext fun y => congrArg (V c main_arg17) (funext fun a => Fin.ext (by
      match a with
      | ⟨0, _⟩ => show win3_4.index t (0 : Fin 2) * 32 + 1 * (y 0).val = (y 0).val; omega
      | ⟨1, _⟩ => show win3_4.index t (1 : Fin 2) * 16 + 1 * (y 1).val = (y 1).val; omega))
  have hq : (((cfg3.win 5).blk t).view.emb j) 1 = j 1 :=
    Fin.ext (by show win3_5.index t (1 : Fin 2) * 32 + 1 * (j 1).val = (j 1).val; omega)
  unfold layerLin
  rw [hA, hX, hWl, hB, hWr, hq]

/-- An index of the output array is in point `t`'s block iff each coordinate is in the block's range on its axis. -/
theorem mem_blk3 (t : Fin cfg3.N) (i : S100000x32.Idx) :
    i ∈ ((cfg3.win 5).blk t).view.set ↔ ∀ a : Fin 2, win3_5.index t a * S10000x32.size a ≤ (i a).val ∧ (i a).val < win3_5.index t a * S10000x32.size a + S10000x32.size a := by
  show i ∈ ((View.whole main_v63).slice (win3_5.rect t)).set ↔ _
  rw [View.set_slice_whole, Rect.mem_set_unit]
  exact Iff.rfl

/-- Row r of the output is written by the point r / 10000: the ten row blocks tile the array. -/
theorem cover3 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  have hN : grid3.N = 10 := N_3
  have hlt : (i 0).val / 10000 < grid3.N := by omega
  refine ⟨⟨(i 0).val / 10000, hlt⟩, flush3_5 _, ?_⟩
  rw [mem_blk3]
  obtain ⟨e00, e01, e10, e11, e20, e21, e30, e40, e41, e50, e51⟩ := idx3 ⟨(i 0).val / 10000, hlt⟩
  have e50' : win3_5.index ⟨(i 0).val / 10000, hlt⟩ (0 : Fin 2) = (i 0).val / 10000 := e50
  intro a
  match a with
  | ⟨0, _⟩ =>
    show win3_5.index ⟨(i 0).val / 10000, hlt⟩ (0 : Fin 2) * 10000 ≤ (i 0).val ∧ (i 0).val < win3_5.index ⟨(i 0).val / 10000, hlt⟩ (0 : Fin 2) * 10000 + 10000
    omega
  | ⟨1, _⟩ =>
    show win3_5.index ⟨(i 0).val / 10000, hlt⟩ (1 : Fin 2) * 32 ≤ (i 1).val ∧ (i 1).val < win3_5.index ⟨(i 0).val / 10000, hlt⟩ (1 : Fin 2) * 32 + 32
    omega

/-- The output array after the region: the layer of the arrays the region was entered with. -/
theorem final3 (c : Dev nD) :
    (dat3 (F := Ideal) V c).arrAt 5 cfg3.N
      = layerLin (M := 100000) (V c main_v62) (V c main_v50) (V c main_arg15) (V c main_arg16) (V c main_arg17) :=
  (dat3 (F := Ideal) V c).arrAt_eq_of_cover 5 _ (fun t _ => flushed3 V c t) (cover3)

end Cert.KernelIdeal.Blocks

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.Pay4.lean ====
/-
  What the decoder's body computes, entry by entry.

  Row by row: hidden = max (h · Wd1ᵀ + bd1) 0, logits = hidden · Wd2ᵀ + bd2 (two columns), then the softmax shifted by
  the row's maximum: exp (z - max z) divided by the row's sum of those exponentials. The row maximum is a lane
  reduction folded from minus infinity, the row sum a lane reduction from zero; both come back as a column spread
  over the row.
-/
import proofs.«164675_j61770219651287_1_alg».proof.Proof.Gen.KernelIdeal.Skeleton
import proofs.«164675_j61770219651287_1_alg».proof.Proof.Spec
import proofs.«164675_j61770219651287_1_alg».proof.Proof.KDots
import proofs.«164675_j61770219651287_1_alg».proof.Proof.Pay3
import proofs.«164675_j61770219651287_1_alg».proof.Proof.LibKeepdims
import Idealize.ShloMosaic.PureOps.Ideal.Laws

noncomputable section

namespace Cert.KernelIdeal.Pay

open Cert.KernelIdeal Cert.KernelIdeal.Gen Cert.KernelIdeal.Dots Cert.Sage
open Idealize.ShloMosaic Idealize.ShloMosaic.ValueIdx Idealize.ShloMosaic.Keepdims

/-- A length-2 bias, cast to one row and broadcast down a 10000-row block, read at (p, c): the bias at c. -/
theorem bias_row2 (b : Vec Ideal S2 .f32) (p : Fin 10000) (c : Fin 2) :
    broadcastTo S10000x2 (shapeCast S1x2 b shapeCasts_S2_S1x2) broadcasts_S1x2_S10000x2 (ix2 p c) = b (ix1 c) :=
  (broadcastTo_1b_ab_apply _ _ p c).trans (shapeCast_a_1a_apply b _ 0 c)

/-- The decoder's input block times the transposed 32 by 32 weight, at (p, q). -/
theorem prod32x32 (h : Vec Ideal S10000x32 .f32) (w : Vec Ideal S32x32 .f32) (p : Fin 10000) (q : Fin 32) :
    matmul (F := Ideal) dot_S10000x32_S32x32_S10000x32_1_0_0_1_n_n none
      (truncf .bf16 (shapeCast S10000x32 h shapeCasts_S10000x32_S10000x32) bitsLt_bf16_f32)
      (transpose S32x32 [1, 0] (truncf .bf16 w bitsLt_bf16_f32) transposes_S32x32_p1_0_S32x32)
      (constant S10000x32 .f32 0x00000000#32) (ix2 p q) = dotT (row h p) w q :=
  mm_S10000x32_S32x32 _ _ (ix2 p q) (row h p) (fun k => w (ix2 q k))
    (fun k => congrFun (shapeCast_self h shapeCasts_S10000x32_S10000x32) (ix2 p k))
    (fun k => transpose_ix2_apply _ _ k q)

/-- A 32-column block of activations times the transposed 2 by 32 weight, at (p, c). -/
theorem prod32x2 (z : FVec Ideal S10000x32 .f32) (w : Vec Ideal S2x32 .f32) (p : Fin 10000) (c : Fin 2) :
    matmul (F := Ideal) dot_S10000x32_S32x2_S10000x2_1_0_0_1_n_n none
      (truncf .bf16 z bitsLt_bf16_f32)
      (transpose S32x2 [1, 0] (truncf .bf16 w bitsLt_bf16_f32) transposes_S2x32_p1_0_S32x2)
      (constant S10000x2 .f32 0x00000000#32) (ix2 p c) = dotT (fun k => z (ix2 p k)) w c :=
  mm_S10000x32_S32x2 _ _ (ix2 p c) (fun k => z (ix2 p k)) (fun k => w (ix2 c k))
    (fun k => rfl)
    (fun k => transpose_ix2_apply _ _ k c)

/-- The block of hidden activations. -/
def hid (h : Vec Ideal S10000x32 .f32) (w1 : Vec Ideal S32x32 .f32) (b1 : Vec Ideal S32 .f32) : FVec Ideal S10000x32 .f32 :=
  maximumf
    (addf
      (matmul (F := Ideal) dot_S10000x32_S32x32_S10000x32_1_0_0_1_n_n none
        (truncf .bf16 (shapeCast S10000x32 h shapeCasts_S10000x32_S10000x32) bitsLt_bf16_f32)
        (transpose S32x32 [1, 0] (truncf .bf16 w1 bitsLt_bf16_f32) transposes_S32x32_p1_0_S32x32)
        (constant S10000x32 .f32 0x00000000#32))
      (broadcastTo S10000x32 (shapeCast S1x32 b1 shapeCasts_S32_S1x32) broadcasts_S1x32_S10000x32))
    (broadcast S10000x32 (Scalar.ofBits (F := Ideal) .f32 0x00000000#32))

theorem hid_at (h : Vec Ideal S10000x32 .f32) (w1 : Vec Ideal S32x32 .f32) (b1 : Vec Ideal S32 .f32) (p : Fin 10000) (q : Fin 32) :
    hid h w1 b1 (ix2 p q) = hidden (row h p) w1 b1 q :=
  congrArg₂ max (congrArg₂ (· + ·) (prod32x32 h w1 p q) (bias_row32 b1 p q)) rfl

/-- The block of logits. -/
def lgt (h : Vec Ideal S10000x32 .f32) (w1 : Vec Ideal S32x32 .f32) (b1 : Vec Ideal S32 .f32) (w2 : Vec Ideal S2x32 .f32)
    (b2 : Vec Ideal S2 .f32) : FVec Ideal S10000x2 .f32 :=
  addf
    (matmul (F := Ideal) dot_S10000x32_S32x2_S10000x2_1_0_0_1_n_n none
      (truncf .bf16 (hid h w1 b1) bitsLt_bf16_f32)
      (transpose S32x2 [1, 0] (truncf .bf16 w2 bitsLt_bf16_f32) transposes_S2x32_p1_0_S32x2)
      (constant S10000x2 .f32 0x00000000#32))
    (broadcastTo S10000x2 (shapeCast S1x2 b2 shapeCasts_S2_S1x2) broadcasts_S1x2_S10000x2)

theorem lgt_at (h : Vec Ideal S10000x32 .f32) (w1 : Vec Ideal S32x32 .f32) (b1 : Vec Ideal S32 .f32) (w2 : Vec Ideal S2x32 .f32)
    (b2 : Vec Ideal S2 .f32) (p : Fin 10000) (c : Fin 2) :
    lgt h w1 b1 w2 b2 (ix2 p c) = logits (row h p) w1 b1 w2 b2 c :=
  congrArg₂ (· + ·)
    ((prod32x2 (hid h w1 b1) w2 p c).trans
      (Finset.sum_congr rfl fun k _ => congrArg (· * w2 (ix2 c k)) (hid_at h w1 b1 p k)))
    (bias_row2 b2 p c)

/-! ### The softmax of a block of logits -/

/-- The row maxima. -/
def rmax (z : FVec Ideal S10000x2 .f32) : FVec Ideal S10000 .f32 :=
  multiReduction .maximumf [1] S10000 z 0xFF800000#32 reduces_S10000x2_S10000 (.inl rfl) rfl
/-- The shifted exponentials. -/
def ez (z : FVec Ideal S10000x2 .f32) : FVec Ideal S10000x2 .f32 :=
  exp (subf z (broadcastTo S10000x2 (shapeCast S10000x1 (rmax z) shapeCasts_S10000_S10000x1) broadcasts_S10000x1_S10000x2))
/-- Their row sums. -/
def rsum (z : FVec Ideal S10000x2 .f32) : FVec Ideal S10000 .f32 :=
  multiReduction .add [1] S10000 (ez z) 0x00000000#32 reduces_S10000x2_S10000 (.inl rfl) rfl
/-- The quotient. -/
def smx (z : FVec Ideal S10000x2 .f32) : FVec Ideal S10000x2 .f32 :=
  divf (ez z) (broadcastTo S10000x2 (shapeCast S10000x1 (rsum z) shapeCasts_S10000_S10000x1) broadcasts_S10000x1_S10000x2)

/-- The reduced index (p) with the lane coordinate k put back is (p, k). -/
theorem lift_row (p : Fin 10000) (k : Fin 2) : reduces_S10000x2_S10000.lift (ix1 p) k = ix2 p k :=
  funext fun a => Fin.ext (by
    match a with
    | ⟨0, _⟩ => rfl
    | ⟨1, _⟩ => rfl)

theorem rmax_at (z : FVec Ideal S10000x2 .f32) (p : Fin 10000) : rmax z (ix1 p) = rowMax (fun c => z (ix2 p c)) :=
  (Ideal.multiReduction_maximumf_single z _ reduces_S10000x2_S10000 (.inl rfl) rfl (ix1 p)).trans
    (congrArg (Finset.fold max (Ideal.ofBits .f32 0xFF800000#32) · (Finset.univ : Finset (Fin 2)))
      (funext fun k => congrArg z (lift_row p k)))

theorem ez_at (z : FVec Ideal S10000x2 .f32) (p : Fin 10000) (c : Fin 2) :
    ez z (ix2 p c) = Ideal.exp (z (ix2 p c) - rowMax (fun c' => z (ix2 p c'))) :=
  congrArg (fun m => Ideal.exp (z (ix2 p c) - m))
    ((column_spread (rmax z) shapeCasts_S10000_S10000x1 broadcasts_S10000x1_S10000x2 p c).trans (rmax_at z p))

theorem rsum_at (z : FVec Ideal S10000x2 .f32) (p : Fin 10000) :
    rsum z (ix1 p) = ∑ c' : Fin 2, Ideal.exp (z (ix2 p c') - rowMax (fun c'' => z (ix2 p c''))) :=
  (Ideal.multiReduction_add_single (ez z) _ reduces_S10000x2_S10000 (.inl rfl) rfl (ix1 p)).trans
    (Finset.sum_congr rfl fun k _ => (congrArg (ez z) (lift_row p k)).trans (ez_at z p k))

theorem smx_at (z : FVec Ideal S10000x2 .f32) (p : Fin 10000) (c : Fin 2) :
    smx z (ix2 p c) = softmax (fun c' => z (ix2 p c')) c :=
  congrArg₂ Ideal.div (ez_at z p c)
    ((column_spread (rsum z) shapeCasts_S10000_S10000x1 broadcasts_S10000x1_S10000x2 p c).trans (rsum_at z p))

/-- The decoder's body is the decoder on its blocks. -/
theorem pay4_eq (h : Vec Ideal S10000x32 .f32) (w1 : Vec Ideal S32x32 .f32) (b1 : Vec Ideal S32 .f32) (w2 : Vec Ideal S2x32 .f32)
    (b2 : Vec Ideal S2 .f32) : k4_pay1 h w1 b1 w2 b2 = decoder h w1 b1 w2 b2 := by
  funext y
  obtain ⟨p, c, rfl⟩ : ∃ (p : Fin 10000) (c : Fin 2), y = ix2 p c := ⟨y 0, y 1, eq_ix2 y⟩
  have e : k4_pay1 h w1 b1 w2 b2 = smx (lgt h w1 b1 w2 b2) := rfl
  rw [e]
  exact (smx_at _ p c).trans (congrArg (fun z => softmax z c) (funext fun c' => lgt_at h w1 b1 w2 b2 p c'))

end Cert.KernelIdeal.Pay

end
-- ==== Proof.Blocks4.lean ====
/-
  From blocks to arrays, the decoder (region 4).

  Ten grid points; point t fetches rows 10000 t … 10000 t + 9999 of the fourth layer's output, the two decoder
  weights and biases whole, and writes the same rows of the two-column result. A row of the result depends on the
  same row of the input only (the softmax is over a row's two entries), and the row blocks tile the result.
-/
import proofs.«164675_j61770219651287_1_alg».proof.Proof.Gen.KernelIdeal.Frame
import proofs.«164675_j61770219651287_1_alg».proof.Proof.Pay4
import proofs.«164675_j61770219651287_1_alg».proof.Proof.BlocksCommon
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Region 4 -/

/-- The index maps of region 4 over its ten grid points. -/
theorem idx4 : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

set_option maxHeartbeats 2000000 in
/-- What grid point `t` writes back is block `t` of the decoder applied to the whole arrays as the region finds them. -/
theorem flushed4 (c : Dev nD) (t : Fin cfg4.N) :
    (dat4 (F := Ideal) V c).flushed 5 t = ((cfg4.win 5).blk t).view.read (Elt Ideal)
      (decoder (M := 100000) (V c main_v63) (V c main_arg18) (V c main_arg19) (V c main_arg20) (V c main_arg21)) := by
  show (cfg4.win 5).cut (grid4.coords t) ((dat4 (F := Ideal) V c).after 5 t) = _
  rw [after4_5]
  unfold out4_5
  rw [View.canon_unit_zero hz2]
  simp only [View.ld_unit_zero (S := S10000x32) hz2, View.ld_unit_zero (S := S32x32) hz2, View.ld_unit_zero (S := S32) hz1,
    View.ld_unit_zero (S := S2x32) hz2, View.ld_unit_zero (S := S2) hz1]
  rw [Pay.pay4_eq]
  obtain ⟨e00, e01, e10, e11, e20, e30, e31, e40, eo0, eo1⟩ := idx4 t
  funext j
  show decoder (iblk4 V c 0 t) (iblk4 V c 1 t) (iblk4 V c 2 t) (iblk4 V c 3 t) (iblk4 V c 4 t) j
    = decoder (M := 100000) (V c main_v63) (V c main_arg18) (V c main_arg19) (V c main_arg20) (V c main_arg21) (((cfg4.win 5).blk t).view.emb j)
  have hH : row (iblk4 V c 0 t) (j 0) = row (r := 100000) (V c main_v63) ((((cfg4.win 5).blk t).view.emb j) 0) :=
    funext fun k => congrArg (V c main_v63) (funext fun a => Fin.ext (by
      match a with
      | ⟨0, _⟩ => show win4_0.index t (0 : Fin 2) * 10000 + 1 * (j 0).val = win4_5.index t (0 : Fin 2) * 10000 + 1 * (j 0).val; omega
      | ⟨1, _⟩ => show win4_0.index t (1 : Fin 2) * 32 + 1 * k.val = k.val; omega))
  have hW1 : iblk4 V c 1 t = V c main_arg18 :=
    funext fun y => congrArg (V c main_arg18) (funext fun a => Fin.ext (by
      match a with
      | ⟨0, _⟩ => show win4_1.index t (0 : Fin 2) * 32 + 1 * (y 0).val = (y 0).val; omega
      | ⟨1, _⟩ => show win4_1.index t (1 : Fin 2) * 32 + 1 * (y 1).val = (y 1).val; omega))
  have hW2 : iblk4 V c 2 t = V c main_arg19 :=
    funext fun y => congrArg (V c main_arg19) (funext fun a => Fin.ext (by
      match a with
      | ⟨0, _⟩ => show win4_2.index t (0 : Fin 1) * 32 + 1 * (y 0).val = (y 0).val; omega))
  have hW3 : iblk4 V c 3 t = V c main_arg20 :=
    funext fun y => congrArg (V c main_arg20) (funext fun a => Fin.ext (by
      match a with
      | ⟨0, _⟩ => show win4_3.index t (0 : Fin 2) * 2 + 1 * (y 0).val = (y 0).val; omega
      | ⟨1, _⟩ => show win4_3.index t (1 : Fin 2) * 32 + 1 * (y 1).val = (y 1).val; omega))
  have hW4 : iblk4 V c 4 t = V c main_arg21 :=
    funext fun y => congrArg (V c main_arg21) (funext fun a => Fin.ext (by
      match a with
      | ⟨0, _⟩ => show win4_4.index t (0 : Fin 1) * 2 + 1 * (y 0).val = (y 0).val; omega))
  have hq : (((cfg4.win 5).blk t).view.emb j) 1 = j 1 :=
    Fin.ext (by show win4_5.index t (1 : Fin 2) * 2 + 1 * (j 1).val = (j 1).val; omega)
  unfold decoder
  rw [hH, hW1, hW2, hW3, hW4, hq]

/-- An index of the output array is in point `t`'s block iff each coordinate is in the block's range on its axis. -/
theorem mem_blk4 (t : Fin cfg4.N) (i : S100000x2.Idx) :
    i ∈ ((cfg4.win 5).blk t).view.set ↔ ∀ a : Fin 2, win4_5.index t a * S10000x2.size a ≤ (i a).val ∧ (i a).val < win4_5.index t a * S10000x2.size a + S10000x2.size a := by
  show i ∈ ((View.whole main_v64).slice (win4_5.rect t)).set ↔ _
  rw [View.set_slice_whole, Rect.mem_set_unit]
  exact Iff.rfl

/-- Row r of the output is written by the point r / 10000: the ten row blocks tile the array. -/
theorem cover4 (i : S100000x2.Idx) :
    ∃ t : Fin cfg4.N, (cfg4.win 5).flush t = true ∧ i ∈ ((cfg4.win 5).blk t).view.set := by
  have hi0 : (i 0).val < 100000 := (i 0).isLt
  have hi1 : (i 1).val < 2 := (i 1).isLt
  have hN : grid4.N = 10 := N_4
  have hlt : (i 0).val / 10000 < grid4.N := by omega
  refine ⟨⟨(i 0).val / 10000, hlt⟩, flush4_5 _, ?_⟩
  rw [mem_blk4]
  obtain ⟨e00, e01, e10, e11, e20, e30, e31, e40, eo0, eo1⟩ := idx4 ⟨(i 0).val / 10000, hlt⟩
  have eo0' : win4_5.index ⟨(i 0).val / 10000, hlt⟩ (0 : Fin 2) = (i 0).val / 10000 := eo0
  intro a
  match a with
  | ⟨0, _⟩ =>
    show win4_5.index ⟨(i 0).val / 10000, hlt⟩ (0 : Fin 2) * 10000 ≤ (i 0).val ∧ (i 0).val < win4_5.index ⟨(i 0).val / 10000, hlt⟩ (0 : Fin 2) * 10000 + 10000
    omega
  | ⟨1, _⟩ =>
    show win4_5.index ⟨(i 0).val / 10000, hlt⟩ (1 : Fin 2) * 2 ≤ (i 1).val ∧ (i 1).val < win4_5.index ⟨(i 0).val / 10000, hlt⟩ (1 : Fin 2) * 2 + 2
    omega

/-- The output array after the region: the layer of the arrays the region was entered with. -/
theorem final4 (c : Dev nD) :
    (dat4 (F := Ideal) V c).arrAt 5 cfg4.N = decoder (M := 100000) (V c main_v63) (V c main_arg18) (V c main_arg19) (V c main_arg20) (V c main_arg21) :=
  (dat4 (F := Ideal) V c).arrAt_eq_of_cover 5 _ (fun t _ => flushed4 V c t) (cover4)

end Cert.KernelIdeal.Blocks

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.RefOps.lean ====
/-
  The reference's dense operations over arbitrary arrays, as the specification's layers.

  For any aggregate array A and feature array X (whatever computed them), the reference's
      A · Wlᵀ + b + X · Wrᵀ      (dot_general with a transposed weight, bias broadcast to every row, second dot_general)
  read at (n, q) is A[n, :] · Wl[q, :] + b[q] + X[n, :] · Wr[q, :], the specification's combine with the bias moved past
  the second product; the ReLU is a maximum with a broadcast zero.
-/
import proofs.«164675_j61770219651287_1_alg».proof.Proof.Gen.ReferenceIdeal.Read
import proofs.«164675_j61770219651287_1_alg».proof.Proof.Spec
import proofs.«164675_j61770219651287_1_alg».proof.Proof.LibMatmulRows
import proofs.«164675_j61770219651287_1_alg».proof.Proof.LibHostBroadcast
import Idealize.ShloMosaic.Lib.ValueLayout

noncomputable section

namespace Cert.ReferenceIdeal.Ops

open Cert.ReferenceIdeal Cert.ReferenceIdeal.Gen Cert.ReferenceIdeal.Read Cert.Sage
open Idealize.ShloMosaic Idealize.ShloMosaic.ValueIdx

/-- A 16-column array times a transposed 16 by 16 weight, at (n, q). -/
theorem dotT16x16 (A : (⟨S100000x16, .f32⟩ : BufTy).Contents (Elt Ideal)) (W : (⟨S16x16, .f32⟩ : BufTy).Contents (Elt Ideal)) (i : S100000x16.Idx) :
    Host.dotGeneral (F := Ideal) (φ₁ := .f32) (φ₂ := .f32) dot_S100000x16_S16x16_S100000x16_1_0_0_1_n_n none A
      (transpose S16x16 [1, 0] W transposes_S16x16_S16x16_1_0) i = dotT (row (r := 100000) A (i 0)) W (i 1) := by
  simp only [Host.dotGeneral]
  exact (MatmulRows.dotGeneral_apply _ none _ rfl rfl rfl rfl lhs_main_v61_0 rhs_main_v61_1 A _ i).trans
    (Finset.sum_congr rfl fun k _ => congrArg (A (ix2 (i 0) k) * ·) (transpose_ix2_apply W _ k (i 1)))

/-- A 16-column array times a transposed 32 by 16 weight, at (n, q). -/
theorem dotT16x32 (A : (⟨S100000x16, .f32⟩ : BufTy).Contents (Elt Ideal)) (W : (⟨S32x16, .f32⟩ : BufTy).Contents (Elt Ideal)) (i : S100000x32.Idx) :
    Host.dotGeneral (F := Ideal) (φ₁ := .f32) (φ₂ := .f32) dot_S100000x16_S16x32_S100000x32_1_0_0_1_n_n none A
      (transpose S16x32 [1, 0] W transposes_S32x16_S16x32_1_0) i = dotT (row (r := 100000) A (i 0)) W (i 1) := by
  simp only [Host.dotGeneral]
  exact (MatmulRows.dotGeneral_apply _ none _ rfl rfl rfl rfl lhs_main_v103_0 rhs_main_v103_1 A _ i).trans
    (Finset.sum_congr rfl fun k _ => congrArg (A (ix2 (i 0) k) * ·) (transpose_ix2_apply W _ k (i 1)))

/-- Layers two and three over any aggregate and any features. -/
theorem reluLayer16 (A X : (⟨S100000x16, .f32⟩ : BufTy).Contents (Elt Ideal)) (Wl : (⟨S16x16, .f32⟩ : BufTy).Contents (Elt Ideal)) (b : (⟨S16, .f32⟩ : BufTy).Contents (Elt Ideal)) (Wr : (⟨S16x16, .f32⟩ : BufTy).Contents (Elt Ideal)) :
    maximumf
      (addf
        (addf (Host.dotGeneral (F := Ideal) (φ₁ := .f32) (φ₂ := .f32) dot_S100000x16_S16x16_S100000x16_1_0_0_1_n_n none A (transpose S16x16 [1, 0] Wl transposes_S16x16_S16x16_1_0))
          (broadcastInDim S100000x16 ![0, 1] bcast_S1x16_S100000x16_0_1 (broadcastInDim S1x16 ![1] bcast_S16_S1x16_1 b)))
        (Host.dotGeneral (F := Ideal) (φ₁ := .f32) (φ₂ := .f32) dot_S100000x16_S16x16_S100000x16_1_0_0_1_n_n none X (transpose S16x16 [1, 0] Wr transposes_S16x16_S16x16_1_0)))
      (broadcastInDim S100000x16 ![] bcast_S_S100000x16 (constant (F := Ideal) S_ .f32 0x00000000#32))
    = layerRelu (M := 100000) A X Wl b Wr :=
  funext fun i => congrArg₂ max
    ((congrArg₂ (· + ·) (congrArg₂ (· + ·) (dotT16x16 A Wl i) (HostBroadcast.bias_apply _ _ b i)) (dotT16x16 X Wr i)).trans
      (combine_ref _ _ Wl Wr b (i 1)))
    (HostBroadcast.scalar_apply _ _ _ i)

/-- Layer four over any aggregate and any features. -/
theorem linLayer32 (A X : (⟨S100000x16, .f32⟩ : BufTy).Contents (Elt Ideal)) (Wl : (⟨S32x16, .f32⟩ : BufTy).Contents (Elt Ideal)) (b : (⟨S32, .f32⟩ : BufTy).Contents (Elt Ideal)) (Wr : (⟨S32x16, .f32⟩ : BufTy).Contents (Elt Ideal)) :
    addf
      (addf (Host.dotGeneral (F := Ideal) (φ₁ := .f32) (φ₂ := .f32) dot_S100000x16_S16x32_S100000x32_1_0_0_1_n_n none A (transpose S16x32 [1, 0] Wl transposes_S32x16_S16x32_1_0))
        (broadcastInDim S100000x32 ![0, 1] bcast_S1x32_S100000x32_0_1 (broadcastInDim S1x32 ![1] bcast_S32_S1x32_1 b)))
      (Host.dotGeneral (F := Ideal) (φ₁ := .f32) (φ₂ := .f32) dot_S100000x16_S16x32_S100000x32_1_0_0_1_n_n none X (transpose S16x32 [1, 0] Wr transposes_S32x16_S16x32_1_0))
    = layerLin (M := 100000) A X Wl b Wr :=
  funext fun i =>
    (congrArg₂ (· + ·) (congrArg₂ (· + ·) (dotT16x32 A Wl i) (HostBroadcast.bias_apply _ _ b i)) (dotT16x32 X Wr i)).trans
      (combine_ref _ _ Wl Wr b (i 1))

end Cert.ReferenceIdeal.Ops

end
-- ==== Proof.RefOps1.lean ====
/-
  The reference's first layer over arbitrary arrays: the one-column combine, the eval-mode batch norm
  (h - mean) * rsqrt(var + eps) * gamma + beta with each length-16 vector broadcast to every row, and the ReLU.
-/
import proofs.«164675_j61770219651287_1_alg».proof.Proof.Gen.ReferenceIdeal.Read
import proofs.«164675_j61770219651287_1_alg».proof.Proof.Spec
import proofs.«164675_j61770219651287_1_alg».proof.Proof.LibMatmulRows
import proofs.«164675_j61770219651287_1_alg».proof.Proof.LibHostBroadcast
import Idealize.ShloMosaic.Lib.ValueLayout

noncomputable section

namespace Cert.ReferenceIdeal.Ops

open Cert.ReferenceIdeal Cert.ReferenceIdeal.Gen Cert.ReferenceIdeal.Read Cert.Sage
open Idealize.ShloMosaic Idealize.ShloMosaic.ValueIdx

/-- A one-column array times a transposed 16 by 1 weight, at (n, q). -/
theorem dotT1x16 (A : (⟨S100000x1, .f32⟩ : BufTy).Contents (Elt Ideal)) (W : (⟨S16x1, .f32⟩ : BufTy).Contents (Elt Ideal)) (i : S100000x16.Idx) :
    Host.dotGeneral (F := Ideal) (φ₁ := .f32) (φ₂ := .f32) dot_S100000x1_S1x16_S100000x16_1_0_0_1_n_n none A
      (transpose S1x16 [1, 0] W transposes_S16x1_S1x16_1_0) i = dotT (row (r := 100000) A (i 0)) W (i 1) := by
  simp only [Host.dotGeneral]
  exact (MatmulRows.dotGeneral_apply _ none _ rfl rfl rfl rfl lhs_main_v25_0 rhs_main_v25_1 A _ i).trans
    (Finset.sum_congr rfl fun k _ => congrArg (A (ix2 (i 0) k) * ·) (transpose_ix2_apply W _ k (i 1)))

/-- A length-16 vector broadcast to every one of the 100000 rows, at (n, q). -/
theorem rows16 (v : (⟨S16, .f32⟩ : BufTy).Contents (Elt Ideal)) (i : S100000x16.Idx) :
    broadcastInDim S100000x16 ![0, 1] bcast_S1x16_S100000x16_0_1 (broadcastInDim S1x16 ![1] bcast_S16_S1x16_1 v) i = v (ix1 (i 1)) :=
  HostBroadcast.bias_apply _ _ v i

/-- The batch norm's scale rsqrt(var + eps), broadcast to every row, at (n, q). -/
theorem scale16 (var : (⟨S16, .f32⟩ : BufTy).Contents (Elt Ideal)) (i : S100000x16.Idx) :
    broadcastInDim S100000x16 ![0, 1] bcast_S1x16_S100000x16_0_1 (broadcastInDim S1x16 ![1] bcast_S16_S1x16_1
      (Host.rsqrt (addf var (broadcastInDim S16 ![] bcast_S_S16 (constant (F := Ideal) S_ .f32 0x3727C5AC#32))))) i
      = Ideal.rsqrt (var (ix1 (i 1)) + eps) :=
  (rows16 _ i).trans (congrArg (fun e => Ideal.rsqrt (var (ix1 (i 1)) + e)) (HostBroadcast.scalar_apply _ _ _ _))

/-- The first layer over any aggregate and any features. -/
theorem bnLayer (A X : (⟨S100000x1, .f32⟩ : BufTy).Contents (Elt Ideal)) (Wl : (⟨S16x1, .f32⟩ : BufTy).Contents (Elt Ideal)) (b : (⟨S16, .f32⟩ : BufTy).Contents (Elt Ideal)) (Wr : (⟨S16x1, .f32⟩ : BufTy).Contents (Elt Ideal))
    (gamma beta mean var : (⟨S16, .f32⟩ : BufTy).Contents (Elt Ideal)) :
    maximumf
      (addf
        (mulf
          (mulf
            (subf
              (addf
                (addf (Host.dotGeneral (F := Ideal) (φ₁ := .f32) (φ₂ := .f32) dot_S100000x1_S1x16_S100000x16_1_0_0_1_n_n none A (transpose S1x16 [1, 0] Wl transposes_S16x1_S1x16_1_0))
                  (broadcastInDim S100000x16 ![0, 1] bcast_S1x16_S100000x16_0_1 (broadcastInDim S1x16 ![1] bcast_S16_S1x16_1 b)))
                (Host.dotGeneral (F := Ideal) (φ₁ := .f32) (φ₂ := .f32) dot_S100000x1_S1x16_S100000x16_1_0_0_1_n_n none X (transpose S1x16 [1, 0] Wr transposes_S16x1_S1x16_1_0)))
              (broadcastInDim S100000x16 ![0, 1] bcast_S1x16_S100000x16_0_1 (broadcastInDim S1x16 ![1] bcast_S16_S1x16_1 mean)))
            (broadcastInDim S100000x16 ![0, 1] bcast_S1x16_S100000x16_0_1 (broadcastInDim S1x16 ![1] bcast_S16_S1x16_1
              (Host.rsqrt (addf var (broadcastInDim S16 ![] bcast_S_S16 (constant (F := Ideal) S_ .f32 0x3727C5AC#32)))))))
          (broadcastInDim S100000x16 ![0, 1] bcast_S1x16_S100000x16_0_1 (broadcastInDim S1x16 ![1] bcast_S16_S1x16_1 gamma)))
        (broadcastInDim S100000x16 ![0, 1] bcast_S1x16_S100000x16_0_1 (broadcastInDim S1x16 ![1] bcast_S16_S1x16_1 beta)))
      (broadcastInDim S100000x16 ![] bcast_S_S100000x16 (constant (F := Ideal) S_ .f32 0x00000000#32))
    = layerBn (M := 100000) A X Wl b Wr gamma beta mean var :=
  funext fun i => congrArg₂ max
    (congrArg₂ (· + ·)
      (congrArg₂ (· * ·)
        (congrArg₂ (· * ·)
          (congrArg₂ (· - ·)
            ((congrArg₂ (· + ·) (congrArg₂ (· + ·) (dotT1x16 A Wl i) (rows16 b i)) (dotT1x16 X Wr i)).trans
              (combine_ref _ _ Wl Wr b (i 1)))
            (rows16 mean i))
          (scale16 var i))
        (rows16 gamma i))
      (rows16 beta i))
    (HostBroadcast.scalar_apply _ _ _ i)

end Cert.ReferenceIdeal.Ops

end
-- ==== Proof.RefOps4.lean ====
/-
  The reference's decoder over an arbitrary input array: linear, ReLU, linear, and jax's softmax over the two
  columns — the row maximum (a reduce from minus infinity, then a maximum with minus infinity again, which changes
  nothing), the shifted exponentials, their row sum (a reduce from zero) and the quotient.
-/
import proofs.«164675_j61770219651287_1_alg».proof.Proof.Gen.ReferenceIdeal.Read
import proofs.«164675_j61770219651287_1_alg».proof.Proof.Spec
import proofs.«164675_j61770219651287_1_alg».proof.Proof.LibMatmulRows
import proofs.«164675_j61770219651287_1_alg».proof.Proof.LibHostBroadcast
import Idealize.ShloMosaic.Lib.ValueLayout
import Idealize.ShloMosaic.PureOps.Ideal.Laws

set_option maxRecDepth 16384

noncomputable section

namespace Cert.ReferenceIdeal.Ops

open Cert.ReferenceIdeal Cert.ReferenceIdeal.Gen Cert.ReferenceIdeal.Read Cert.Sage
open Idealize.ShloMosaic Idealize.ShloMosaic.ValueIdx

/-- A 32-column array times a transposed 32 by 32 weight, at (n, q). -/
theorem dotT32x32 (A : (⟨S100000x32, .f32⟩ : BufTy).Contents (Elt Ideal)) (W : (⟨S32x32, .f32⟩ : BufTy).Contents (Elt Ideal)) (i : S100000x32.Idx) :
    Host.dotGeneral (F := Ideal) (φ₁ := .f32) (φ₂ := .f32) dot_S100000x32_S32x32_S100000x32_1_0_0_1_n_n none A
      (transpose S32x32 [1, 0] W transposes_S32x32_S32x32_1_0) i = dotT (row (r := 100000) A (i 0)) W (i 1) := by
  simp only [Host.dotGeneral]
  exact (MatmulRows.dotGeneral_apply _ none _ rfl rfl rfl rfl lhs_main_v111_0 rhs_main_v111_1 A _ i).trans
    (Finset.sum_congr rfl fun k _ => congrArg (A (ix2 (i 0) k) * ·) (transpose_ix2_apply W _ k (i 1)))

/-- A 32-column array times a transposed 2 by 32 weight, at (n, c). -/
theorem dotT32x2 (A : (⟨S100000x32, .f32⟩ : BufTy).Contents (Elt Ideal)) (W : (⟨S2x32, .f32⟩ : BufTy).Contents (Elt Ideal)) (i : S100000x2.Idx) :
    Host.dotGeneral (F := Ideal) (φ₁ := .f32) (φ₂ := .f32) dot_S100000x32_S32x2_S100000x2_1_0_0_1_n_n none A
      (transpose S32x2 [1, 0] W transposes_S2x32_S32x2_1_0) i = dotT (row (r := 100000) A (i 0)) W (i 1) := by
  simp only [Host.dotGeneral]
  exact (MatmulRows.dotGeneral_apply _ none _ rfl rfl rfl rfl lhs_main_v117_0 rhs_main_v117_1 A _ i).trans
    (Finset.sum_congr rfl fun k _ => congrArg (A (ix2 (i 0) k) * ·) (transpose_ix2_apply W _ k (i 1)))

/-- The hidden activations of every row. -/
def hid (H : (⟨S100000x32, .f32⟩ : BufTy).Contents (Elt Ideal)) (W1 : (⟨S32x32, .f32⟩ : BufTy).Contents (Elt Ideal)) (b1 : (⟨S32, .f32⟩ : BufTy).Contents (Elt Ideal)) : (⟨S100000x32, .f32⟩ : BufTy).Contents (Elt Ideal) :=
  maximumf
    (addf (Host.dotGeneral (F := Ideal) (φ₁ := .f32) (φ₂ := .f32) dot_S100000x32_S32x32_S100000x32_1_0_0_1_n_n none H (transpose S32x32 [1, 0] W1 transposes_S32x32_S32x32_1_0))
      (broadcastInDim S100000x32 ![0, 1] bcast_S1x32_S100000x32_0_1 (broadcastInDim S1x32 ![1] bcast_S32_S1x32_1 b1)))
    (broadcastInDim S100000x32 ![] bcast_S_S100000x32 (constant (F := Ideal) S_ .f32 0x00000000#32))

theorem hid_at (H : (⟨S100000x32, .f32⟩ : BufTy).Contents (Elt Ideal)) (W1 : (⟨S32x32, .f32⟩ : BufTy).Contents (Elt Ideal)) (b1 : (⟨S32, .f32⟩ : BufTy).Contents (Elt Ideal)) (n : Fin 100000) (q : Fin 32) :
    hid H W1 b1 (ix2 n q) = hidden (row (r := 100000) H n) W1 b1 q :=
  congrArg₂ max (congrArg₂ (· + ·) (dotT32x32 H W1 (ix2 n q)) (HostBroadcast.bias_apply _ _ b1 (ix2 n q)))
    (HostBroadcast.scalar_apply _ _ _ (ix2 n q))

/-- The logits of every row. -/
def lgt (H : (⟨S100000x32, .f32⟩ : BufTy).Contents (Elt Ideal)) (W1 : (⟨S32x32, .f32⟩ : BufTy).Contents (Elt Ideal)) (b1 : (⟨S32, .f32⟩ : BufTy).Contents (Elt Ideal)) (W2 : (⟨S2x32, .f32⟩ : BufTy).Contents (Elt Ideal)) (b2 : (⟨S2, .f32⟩ : BufTy).Contents (Elt Ideal)) : (⟨S100000x2, .f32⟩ : BufTy).Contents (Elt Ideal) :=
  addf (Host.dotGeneral (F := Ideal) (φ₁ := .f32) (φ₂ := .f32) dot_S100000x32_S32x2_S100000x2_1_0_0_1_n_n none (hid H W1 b1) (transpose S32x2 [1, 0] W2 transposes_S2x32_S32x2_1_0))
    (broadcastInDim S100000x2 ![0, 1] bcast_S1x2_S100000x2_0_1 (broadcastInDim S1x2 ![1] bcast_S2_S1x2_1 b2))

theorem lgt_at (H : (⟨S100000x32, .f32⟩ : BufTy).Contents (Elt Ideal)) (W1 : (⟨S32x32, .f32⟩ : BufTy).Contents (Elt Ideal)) (b1 : (⟨S32, .f32⟩ : BufTy).Contents (Elt Ideal)) (W2 : (⟨S2x32, .f32⟩ : BufTy).Contents (Elt Ideal)) (b2 : (⟨S2, .f32⟩ : BufTy).Contents (Elt Ideal))
    (n : Fin 100000) (c : Fin 2) : lgt H W1 b1 W2 b2 (ix2 n c) = logits (row (r := 100000) H n) W1 b1 W2 b2 c :=
  congrArg₂ (· + ·)
    ((dotT32x2 (hid H W1 b1) W2 (ix2 n c)).trans
      (Finset.sum_congr rfl fun k _ => congrArg (· * W2 (ix2 c k)) (hid_at H W1 b1 n k)))
    (HostBroadcast.bias_apply _ _ b2 (ix2 n c))

/-! ### jax's softmax of an array of logits -/

/-- The row maxima: a reduce from minus infinity, then the maximum with minus infinity. -/
def rmax (Z : (⟨S100000x2, .f32⟩ : BufTy).Contents (Elt Ideal)) : (⟨S100000, .f32⟩ : BufTy).Contents (Elt Ideal) :=
  maximumf (broadcastInDim S100000 ![] bcast_S_S100000 (constant (F := Ideal) S_ .f32 0xFF800000#32))
    (Host.reduce (FloatOps.maximumf (F := Ideal) (φ := .f32)) Z (constant (F := Ideal) S_ .f32 0xFF800000#32) reducesTo_S100000x2_S100000_d1 h_S_)
/-- The shifted exponentials. -/
def ez (Z : (⟨S100000x2, .f32⟩ : BufTy).Contents (Elt Ideal)) : (⟨S100000x2, .f32⟩ : BufTy).Contents (Elt Ideal) :=
  Host.exp (F := Ideal) (φ := .f32) (subf Z (broadcastInDim S100000x2 ![0, 1] bcast_S100000x1_S100000x2_0_1 (broadcastInDim S100000x1 ![0] bcast_S100000_S100000x1_0 (rmax Z))))
/-- Their row sums. -/
def rsum (Z : (⟨S100000x2, .f32⟩ : BufTy).Contents (Elt Ideal)) : (⟨S100000, .f32⟩ : BufTy).Contents (Elt Ideal) :=
  Host.reduceAdd (ez Z) (constant (F := Ideal) S_ .f32 0x00000000#32) reducesTo_S100000x2_S100000_d1 h_S_
/-- The quotient. -/
def smx (Z : (⟨S100000x2, .f32⟩ : BufTy).Contents (Elt Ideal)) : (⟨S100000x2, .f32⟩ : BufTy).Contents (Elt Ideal) :=
  Host.divf (F := Ideal) (φ := .f32) (ez Z) (broadcastInDim S100000x2 ![0, 1] bcast_S100000x1_S100000x2_0_1 (broadcastInDim S100000x1 ![0] bcast_S100000_S100000x1_0 (rsum Z)))

theorem reduce_max_at (Z : (⟨S100000x2, .f32⟩ : BufTy).Contents (Elt Ideal)) (n : Fin 100000) :
    Host.reduce (FloatOps.maximumf (F := Ideal) (φ := .f32)) Z (constant (F := Ideal) S_ .f32 0xFF800000#32)
      reducesTo_S100000x2_S100000_d1 h_S_ (ix1 n) = rowMax (fun c => Z (ix2 n c)) := by
  rw [Host.reduce_eq_fold_single (FloatOps.maximumf (F := Ideal) (φ := .f32)) Z _ reducesTo_S100000x2_S100000_d1 (by decide) h_S_ (ix1 n)]
  unfold rowMax ninf
  refine congrArg₂ (fun s f => Finset.fold max s f (Finset.univ : Finset (Fin 2))) rfl (funext fun k => ?_)
  exact congrArg Z (funext fun a => Fin.ext (by match a with | ⟨0, _⟩ => rfl | ⟨1, _⟩ => rfl))

theorem rmax_at (Z : (⟨S100000x2, .f32⟩ : BufTy).Contents (Elt Ideal)) (n : Fin 100000) : rmax Z (ix1 n) = rowMax (fun c => Z (ix2 n c)) := by
  show max (broadcastInDim S100000 ![] bcast_S_S100000 (constant (F := Ideal) S_ .f32 0xFF800000#32) (ix1 n))
    (Host.reduce (FloatOps.maximumf (F := Ideal) (φ := .f32)) Z (constant (F := Ideal) S_ .f32 0xFF800000#32)
      reducesTo_S100000x2_S100000_d1 h_S_ (ix1 n)) = _
  rw [reduce_max_at, HostBroadcast.scalar_apply]
  exact max_start_fold _ _

theorem ez_at (Z : (⟨S100000x2, .f32⟩ : BufTy).Contents (Elt Ideal)) (n : Fin 100000) (c : Fin 2) :
    ez Z (ix2 n c) = Ideal.exp (Z (ix2 n c) - rowMax (fun c' => Z (ix2 n c'))) :=
  congrArg (fun m => Ideal.exp (Z (ix2 n c) - m))
    ((HostBroadcast.column_apply _ _ (rmax Z) (ix2 n c)).trans (rmax_at Z n))

theorem rsum_at (Z : (⟨S100000x2, .f32⟩ : BufTy).Contents (Elt Ideal)) (n : Fin 100000) :
    rsum Z (ix1 n) = ∑ c' : Fin 2, Ideal.exp (Z (ix2 n c') - rowMax (fun c'' => Z (ix2 n c''))) := by
  unfold rsum
  simp only [Host.reduceAdd, Ideal.hostReduceAdd_def]
  rw [Ideal.hostReduceAdd_single reducesTo_S100000x2_S100000_d1 (by decide)]
  refine (congrArg (· + _) (Ideal.ofBits_zero_f32)).trans ((zero_add _).trans (Finset.sum_congr rfl fun k _ => ?_))
  exact (congrArg (ez Z) (funext fun a => Fin.ext (by match a with | ⟨0, _⟩ => rfl | ⟨1, _⟩ => rfl))).trans (ez_at Z n k)

set_option maxRecDepth 200000 in
theorem smx_at (Z : (⟨S100000x2, .f32⟩ : BufTy).Contents (Elt Ideal)) (n : Fin 100000) (c : Fin 2) :
    smx Z (ix2 n c) = softmax (fun c' => Z (ix2 n c')) c :=
  congrArg₂ Ideal.div (ez_at Z n c)
    ((HostBroadcast.column_apply _ _ (rsum Z) (ix2 n c)).trans (rsum_at Z n))

/-- The decoder over any input array. -/
theorem decoderArr (H : (⟨S100000x32, .f32⟩ : BufTy).Contents (Elt Ideal)) (W1 : (⟨S32x32, .f32⟩ : BufTy).Contents (Elt Ideal)) (b1 : (⟨S32, .f32⟩ : BufTy).Contents (Elt Ideal)) (W2 : (⟨S2x32, .f32⟩ : BufTy).Contents (Elt Ideal)) (b2 : (⟨S2, .f32⟩ : BufTy).Contents (Elt Ideal)) :
    smx (lgt H W1 b1 W2 b2) = decoder (M := 100000) H W1 b1 W2 b2 := by
  funext y
  obtain ⟨n, c, rfl⟩ : ∃ (n : Fin 100000) (c : Fin 2), y = ix2 n c := ⟨y 0, y 1, eq_ix2 y⟩
  exact (smx_at _ n c).trans (congrArg (fun z => softmax z c) (funext fun c' => lgt_at H W1 b1 W2 b2 n c'))

end Cert.ReferenceIdeal.Ops

end
-- ==== Proof.RefLayers.lean ====
/-
  The reference's dense stages are the specification's layers of its earlier stages.

  Stage 47 (first layer) of the first aggregate (stage 23) and the node features; stage 68 of the second aggregate
  (stage 59) and stage 47; stage 89 of the third aggregate (stage 80) and stage 68; stage 109 of the fourth aggregate
  (stage 101) and stage 89; the result, stage 131, is the decoder of stage 109. Each is the lemma over arbitrary
  arrays at the aggregate and the previous layer, which stay unopened.
-/
import proofs.«164675_j61770219651287_1_alg».proof.Proof.RefOps
import proofs.«164675_j61770219651287_1_alg».proof.Proof.RefOps1
import proofs.«164675_j61770219651287_1_alg».proof.Proof.RefOps4

noncomputable section

namespace Cert.ReferenceIdeal.Layers

open Cert.ReferenceIdeal Cert.ReferenceIdeal.Read Cert.Sage
open Idealize.ShloMosaic

theorem layer1 (x0 : (⟨S100000x1, .f32⟩ : BufTy).Contents (Elt Ideal)) (x1 : (⟨S2x3200000, .i32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) :
    val_main_v47 (F := Ideal) x0 x1 x2 x3 x4 x5 x6 x7 x8
      = layerBn (M := 100000) (val_main_v23 (F := Ideal) x0 x1) x0 x2 x3 x4 x5 x6 x7 x8 :=
  Ops.bnLayer (val_main_v23 (F := Ideal) x0 x1) x0 x2 x3 x4 x5 x6 x7 x8

theorem layer2 (x0 : (⟨S100000x1, .f32⟩ : BufTy).Contents (Elt Ideal)) (x1 : (⟨S2x3200000, .i32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) :
    val_main_v68 (F := Ideal) x0 x1 x2 x3 x4 x5 x6 x7 x8 x9 x10 x11
      = layerRelu (M := 100000) (val_main_v59 (F := Ideal) x0 x1 x2 x3 x4 x5 x6 x7 x8) (val_main_v47 (F := Ideal) x0 x1 x2 x3 x4 x5 x6 x7 x8) x9 x10 x11 :=
  Ops.reluLayer16 (val_main_v59 (F := Ideal) x0 x1 x2 x3 x4 x5 x6 x7 x8) (val_main_v47 (F := Ideal) x0 x1 x2 x3 x4 x5 x6 x7 x8) x9 x10 x11

theorem layer3 (x0 : (⟨S100000x1, .f32⟩ : BufTy).Contents (Elt Ideal)) (x1 : (⟨S2x3200000, .i32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16x16, .f32⟩ : BufTy).Contents (Elt Ideal)) (x13 : (⟨S16, .f32⟩ : BufTy).Contents (Elt Ideal)) (x14 : (⟨S16x16, .f32⟩ : BufTy).Contents (Elt Ideal)) :
    val_main_v89 (F := Ideal) x0 x1 x2 x3 x4 x5 x6 x7 x8 x9 x10 x11 x12 x13 x14
      = layerRelu (M := 100000) (val_main_v80 (F := Ideal) x0 x1 x2 x3 x4 x5 x6 x7 x8 x9 x10 x11) (val_main_v68 (F := Ideal) x0 x1 x2 x3 x4 x5 x6 x7 x8 x9 x10 x11) x12 x13 x14 :=
  Ops.reluLayer16 (val_main_v80 (F := Ideal) x0 x1 x2 x3 x4 x5 x6 x7 x8 x9 x10 x11) (val_main_v68 (F := Ideal) x0 x1 x2 x3 x4 x5 x6 x7 x8 x9 x10 x11) x12 x13 x14

theorem layer4 (x0 : (⟨S100000x1, .f32⟩ : BufTy).Contents (Elt Ideal)) (x1 : (⟨S2x3200000, .i32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16x16, .f32⟩ : BufTy).Contents (Elt Ideal)) (x13 : (⟨S16, .f32⟩ : BufTy).Contents (Elt Ideal)) (x14 : (⟨S16x16, .f32⟩ : BufTy).Contents (Elt Ideal)) (x15 : (⟨S32x16, .f32⟩ : BufTy).Contents (Elt Ideal)) (x16 : (⟨S32, .f32⟩ : BufTy).Contents (Elt Ideal)) (x17 : (⟨S32x16, .f32⟩ : BufTy).Contents (Elt Ideal)) :
    val_main_v109 (F := Ideal) x0 x1 x2 x3 x4 x5 x6 x7 x8 x9 x10 x11 x12 x13 x14 x15 x16 x17
      = layerLin (M := 100000) (val_main_v101 (F := Ideal) x0 x1 x2 x3 x4 x5 x6 x7 x8 x9 x10 x11 x12 x13 x14) (val_main_v89 (F := Ideal) x0 x1 x2 x3 x4 x5 x6 x7 x8 x9 x10 x11 x12 x13 x14) x15 x16 x17 :=
  Ops.linLayer32 (val_main_v101 (F := Ideal) x0 x1 x2 x3 x4 x5 x6 x7 x8 x9 x10 x11 x12 x13 x14) (val_main_v89 (F := Ideal) x0 x1 x2 x3 x4 x5 x6 x7 x8 x9 x10 x11 x12 x13 x14) x15 x16 x17

theorem result (x0 : (⟨S100000x1, .f32⟩ : BufTy).Contents (Elt Ideal)) (x1 : (⟨S2x3200000, .i32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S16, .f32⟩ : BufTy).Contents (Elt Ideal)) (x6 : (⟨S16, .f32⟩ : BufTy).Contents (Elt Ideal)) (x7 : (⟨S16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16x16, .f32⟩ : BufTy).Contents (Elt Ideal)) (x13 : (⟨S16, .f32⟩ : BufTy).Contents (Elt Ideal)) (x14 : (⟨S16x16, .f32⟩ : BufTy).Contents (Elt Ideal)) (x15 : (⟨S32x16, .f32⟩ : BufTy).Contents (Elt Ideal)) (x16 : (⟨S32, .f32⟩ : BufTy).Contents (Elt Ideal)) (x17 : (⟨S32x16, .f32⟩ : BufTy).Contents (Elt Ideal)) (x18 : (⟨S32x32, .f32⟩ : BufTy).Contents (Elt Ideal)) (x19 : (⟨S32, .f32⟩ : BufTy).Contents (Elt Ideal)) (x20 : (⟨S2x32, .f32⟩ : BufTy).Contents (Elt Ideal)) (x21 : (⟨S2, .f32⟩ : BufTy).Contents (Elt Ideal)) :
    val_main_v131 (F := Ideal) x0 x1 x2 x3 x4 x5 x6 x7 x8 x9 x10 x11 x12 x13 x14 x15 x16 x17 x18 x19 x20 x21
      = decoder (M := 100000) (val_main_v109 (F := Ideal) x0 x1 x2 x3 x4 x5 x6 x7 x8 x9 x10 x11 x12 x13 x14 x15 x16 x17) x18 x19 x20 x21 :=
  Ops.decoderArr (val_main_v109 (F := Ideal) x0 x1 x2 x3 x4 x5 x6 x7 x8 x9 x10 x11 x12 x13 x14 x15 x16 x17) x18 x19 x20 x21

end Cert.ReferenceIdeal.Layers

end
-- ==== Proof.Chain.lean ====
/-
  The kernel program's fold of segments, read at the result array: the reference's result of the same arguments.

  Going through the nine segments in order, each buffer the next segment reads is shown to hold the reference's
  stage of the launch arguments: the index vectors and the inverse in-degree from the first host stretch (no later
  segment writes them), each aggregate from its host stretch, each layer's output from its region's row blocks
  (which tile the output array) and the equality of the body's arithmetic with the reference's layer, and the
  weights and biases from the launch memory (no segment writes an argument).
-/
import proofs.«164675_j61770219651287_1_alg».proof.Proof.KRun
import proofs.«164675_j61770219651287_1_alg».proof.Proof.ChainHost
import proofs.«164675_j61770219651287_1_alg».proof.Proof.Blocks0
import proofs.«164675_j61770219651287_1_alg».proof.Proof.Blocks1
import proofs.«164675_j61770219651287_1_alg».proof.Proof.Blocks2
import proofs.«164675_j61770219651287_1_alg».proof.Proof.Blocks3
import proofs.«164675_j61770219651287_1_alg».proof.Proof.Blocks4
import proofs.«164675_j61770219651287_1_alg».proof.Proof.RefLayers

set_option maxRecDepth 16384

noncomputable section

namespace Cert.KernelIdeal.Chain

open Cert.KernelIdeal Cert.KernelIdeal.Gen Cert.Sage
open Idealize.ShloMosaic Idealize.ShloMosaic.TcCoe Idealize.ShloMosaic.Tactic Idealize.SL.Sem

/-- A buffer that no operation of a host stretch writes holds after the stretch what it held before. -/
macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The first host stretch -/

theorem src1 : W1 m ρ c (Proc.devRef .tc main_v1) = Cert.ReferenceIdeal.Read.val_main_v1 (F := Ideal) (m ((c : Thread nD τ).loc main_arg1)) := stretch0_src (W0 m ρ c) _ rfl
theorem dst1 : W1 m ρ c (Proc.devRef .tc main_v3) = Cert.ReferenceIdeal.Read.val_main_v3 (F := Ideal) (m ((c : Thread nD τ).loc main_arg1)) := stretch0_dst (W0 m ρ c) _ rfl
theorem inv1 : W1 m ρ c (Proc.devRef .tc main_v12) = Cert.ReferenceIdeal.Read.val_main_v12 (F := Ideal) (m ((c : Thread nD τ).loc main_arg1)) := stretch0_inv (W0 m ρ c) _ rfl
theorem in0_agg : V1 m ρ c main_v23 = Cert.ReferenceIdeal.Read.val_main_v23 (F := Ideal) (m ((c : Thread nD τ).loc main_arg0)) (m ((c : Thread nD τ).loc main_arg1)) := stretch0_agg (W0 m ρ c) _ _ rfl rfl
theorem in0_arg0 : V1 m ρ c main_arg0 = (m ((c : Thread nD τ).loc main_arg0)) :=
  (by host_keep hostOps0 : W1 m ρ c (Proc.devRef .tc main_arg0) = W0 m ρ c (Proc.devRef .tc main_arg0))
theorem in0_arg2 : V1 m ρ c main_arg2 = (m ((c : Thread nD τ).loc main_arg2)) :=
  (by host_keep hostOps0 : W1 m ρ c (Proc.devRef .tc main_arg2) = W0 m ρ c (Proc.devRef .tc main_arg2))
theorem in0_arg3 : V1 m ρ c main_arg3 = (m ((c : Thread nD τ).loc main_arg3)) :=
  (by host_keep hostOps0 : W1 m ρ c (Proc.devRef .tc main_arg3) = W0 m ρ c (Proc.devRef .tc main_arg3))
theorem in0_arg4 : V1 m ρ c main_arg4 = (m ((c : Thread nD τ).loc main_arg4)) :=
  (by host_keep hostOps0 : W1 m ρ c (Proc.devRef .tc main_arg4) = W0 m ρ c (Proc.devRef .tc main_arg4))
theorem in0_arg5 : V1 m ρ c main_arg5 = (m ((c : Thread nD τ).loc main_arg5)) :=
  (by host_keep hostOps0 : W1 m ρ c (Proc.devRef .tc main_arg5) = W0 m ρ c (Proc.devRef .tc main_arg5))
theorem in0_arg6 : V1 m ρ c main_arg6 = (m ((c : Thread nD τ).loc main_arg6)) :=
  (by host_keep hostOps0 : W1 m ρ c (Proc.devRef .tc main_arg6) = W0 m ρ c (Proc.devRef .tc main_arg6))
theorem in0_arg7 : V1 m ρ c main_arg7 = (m ((c : Thread nD τ).loc main_arg7)) :=
  (by host_keep hostOps0 : W1 m ρ c (Proc.devRef .tc main_arg7) = W0 m ρ c (Proc.devRef .tc main_arg7))
theorem in0_arg8 : V1 m ρ c main_arg8 = (m ((c : Thread nD τ).loc main_arg8)) :=
  (by host_keep hostOps0 : W1 m ρ c (Proc.devRef .tc main_arg8) = W0 m ρ c (Proc.devRef .tc main_arg8))

/-! ## Region 0: the first layer -/

theorem out0 : W2 m ρ c (Proc.devRef .tc main_v24) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ((Blocks.final0 (V1 m ρ) c).trans ?_)
  rw [in0_agg m ρ c, in0_arg0 m ρ c, in0_arg2 m ρ c, in0_arg3 m ρ c, in0_arg4 m ρ c, in0_arg5 m ρ c, in0_arg6 m ρ c, in0_arg7 m ρ c, in0_arg8 m ρ c]
  exact (Cert.ReferenceIdeal.Layers.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

/-! ## Host stretch 1 and region 1 -/

theorem src2 : W2 m ρ c (Proc.devRef .tc main_v1) = Cert.ReferenceIdeal.Read.val_main_v1 (F := Ideal) (m ((c : Thread nD τ).loc main_arg1)) := ((W2_of_ne m ρ c main_v1 (by decide))).trans (src1 m ρ c)
theorem dst2 : W2 m ρ c (Proc.devRef .tc main_v3) = Cert.ReferenceIdeal.Read.val_main_v3 (F := Ideal) (m ((c : Thread nD τ).loc main_arg1)) := ((W2_of_ne m ρ c main_v3 (by decide))).trans (dst1 m ρ c)
theorem inv2 : W2 m ρ c (Proc.devRef .tc main_v12) = Cert.ReferenceIdeal.Read.val_main_v12 (F := Ideal) (m ((c : Thread nD τ).loc main_arg1)) := ((W2_of_ne m ρ c main_v12 (by decide))).trans (inv1 m ρ c)
theorem in1_agg : V3 m ρ c main_v36 = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  stretch1 (W2 m ρ c) _ _ _ _ _ _ _ _ _ (out0 m ρ c) (src2 m ρ c) (dst2 m ρ c) (inv2 m ρ c)
theorem in1_x : V3 m ρ c main_v24 = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((by host_keep hostOps1 : W3 m ρ c (Proc.devRef .tc main_v24) = W2 m ρ c (Proc.devRef .tc main_v24))).trans (out0 m ρ c)
theorem in1_arg9 : V3 m ρ c main_arg9 = (m ((c : Thread nD τ).loc main_arg9)) :=
  (by host_keep hostOps1 : W3 m ρ c (Proc.devRef .tc main_arg9) = W2 m ρ c (Proc.devRef .tc main_arg9)).trans ((W2_of_ne m ρ c main_arg9 (by decide)).trans ((by host_keep hostOps0 : W1 m ρ c (Proc.devRef .tc main_arg9) = W0 m ρ c (Proc.devRef .tc main_arg9))))
theorem in1_arg10 : V3 m ρ c main_arg10 = (m ((c : Thread nD τ).loc main_arg10)) :=
  (by host_keep hostOps1 : W3 m ρ c (Proc.devRef .tc main_arg10) = W2 m ρ c (Proc.devRef .tc main_arg10)).trans ((W2_of_ne m ρ c main_arg10 (by decide)).trans ((by host_keep hostOps0 : W1 m ρ c (Proc.devRef .tc main_arg10) = W0 m ρ c (Proc.devRef .tc main_arg10))))
theorem in1_arg11 : V3 m ρ c main_arg11 = (m ((c : Thread nD τ).loc main_arg11)) :=
  (by host_keep hostOps1 : W3 m ρ c (Proc.devRef .tc main_arg11) = W2 m ρ c (Proc.devRef .tc main_arg11)).trans ((W2_of_ne m ρ c main_arg11 (by decide)).trans ((by host_keep hostOps0 : W1 m ρ c (Proc.devRef .tc main_arg11) = W0 m ρ c (Proc.devRef .tc main_arg11))))

theorem out1 : W4 m ρ c (Proc.devRef .tc main_v37) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 5).trans ((Blocks.final1 (V3 m ρ) c).trans ?_)
  rw [in1_agg m ρ c, in1_x m ρ c, in1_arg9 m ρ c, in1_arg10 m ρ c, in1_arg11 m ρ c]
  exact (Cert.ReferenceIdeal.Layers.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

/-! ## Host stretch 2 and region 2 -/

theorem src4 : W4 m ρ c (Proc.devRef .tc main_v1) = Cert.ReferenceIdeal.Read.val_main_v1 (F := Ideal) (m ((c : Thread nD τ).loc main_arg1)) := ((W4_of_ne m ρ c main_v1 (by decide)).trans ((by host_keep hostOps1 : W3 m ρ c (Proc.devRef .tc main_v1) = W2 m ρ c (Proc.devRef .tc main_v1)).trans ((W2_of_ne m ρ c main_v1 (by decide))))).trans (src1 m ρ c)
theorem dst4 : W4 m ρ c (Proc.devRef .tc main_v3) = Cert.ReferenceIdeal.Read.val_main_v3 (F := Ideal) (m ((c : Thread nD τ).loc main_arg1)) := ((W4_of_ne m ρ c main_v3 (by decide)).trans ((by host_keep hostOps1 : W3 m ρ c (Proc.devRef .tc main_v3) = W2 m ρ c (Proc.devRef .tc main_v3)).trans ((W2_of_ne m ρ c main_v3 (by decide))))).trans (dst1 m ρ c)
theorem inv4 : W4 m ρ c (Proc.devRef .tc main_v12) = Cert.ReferenceIdeal.Read.val_main_v12 (F := Ideal) (m ((c : Thread nD τ).loc main_arg1)) := ((W4_of_ne m ρ c main_v12 (by decide)).trans ((by host_keep hostOps1 : W3 m ρ c (Proc.devRef .tc main_v12) = W2 m ρ c (Proc.devRef .tc main_v12)).trans ((W2_of_ne m ρ c main_v12 (by decide))))).trans (inv1 m ρ c)
theorem in2_agg : V5 m ρ c main_v49 = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  stretch2 (W4 m ρ c) _ _ _ _ _ _ _ _ _ _ _ _ (out1 m ρ c) (src4 m ρ c) (dst4 m ρ c) (inv4 m ρ c)
theorem in2_x : V5 m ρ c main_v37 = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((by host_keep hostOps2 : W5 m ρ c (Proc.devRef .tc main_v37) = W4 m ρ c (Proc.devRef .tc main_v37))).trans (out1 m ρ c)
theorem in2_arg12 : V5 m ρ c main_arg12 = (m ((c : Thread nD τ).loc main_arg12)) :=
  (by host_keep hostOps2 : W5 m ρ c (Proc.devRef .tc main_arg12) = W4 m ρ c (Proc.devRef .tc main_arg12)).trans ((W4_of_ne m ρ c main_arg12 (by decide)).trans ((by host_keep hostOps1 : W3 m ρ c (Proc.devRef .tc main_arg12) = W2 m ρ c (Proc.devRef .tc main_arg12)).trans ((W2_of_ne m ρ c main_arg12 (by decide)).trans ((by host_keep hostOps0 : W1 m ρ c (Proc.devRef .tc main_arg12) = W0 m ρ c (Proc.devRef .tc main_arg12))))))
theorem in2_arg13 : V5 m ρ c main_arg13 = (m ((c : Thread nD τ).loc main_arg13)) :=
  (by host_keep hostOps2 : W5 m ρ c (Proc.devRef .tc main_arg13) = W4 m ρ c (Proc.devRef .tc main_arg13)).trans ((W4_of_ne m ρ c main_arg13 (by decide)).trans ((by host_keep hostOps1 : W3 m ρ c (Proc.devRef .tc main_arg13) = W2 m ρ c (Proc.devRef .tc main_arg13)).trans ((W2_of_ne m ρ c main_arg13 (by decide)).trans ((by host_keep hostOps0 : W1 m ρ c (Proc.devRef .tc main_arg13) = W0 m ρ c (Proc.devRef .tc main_arg13))))))
theorem in2_arg14 : V5 m ρ c main_arg14 = (m ((c : Thread nD τ).loc main_arg14)) :=
  (by host_keep hostOps2 : W5 m ρ c (Proc.devRef .tc main_arg14) = W4 m ρ c (Proc.devRef .tc main_arg14)).trans ((W4_of_ne m ρ c main_arg14 (by decide)).trans ((by host_keep hostOps1 : W3 m ρ c (Proc.devRef .tc main_arg14) = W2 m ρ c (Proc.devRef .tc main_arg14)).trans ((W2_of_ne m ρ c main_arg14 (by decide)).trans ((by host_keep hostOps0 : W1 m ρ c (Proc.devRef .tc main_arg14) = W0 m ρ c (Proc.devRef .tc main_arg14))))))

theorem out2 : W6 m ρ c (Proc.devRef .tc main_v50) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 5).trans ((Blocks.final2 (V5 m ρ) c).trans ?_)
  rw [in2_agg m ρ c, in2_x m ρ c, in2_arg12 m ρ c, in2_arg13 m ρ c, in2_arg14 m ρ c]
  exact (Cert.ReferenceIdeal.Layers.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))).symm

/-! ## Host stretch 3 and region 3 -/

theorem src6 : W6 m ρ c (Proc.devRef .tc main_v1) = Cert.ReferenceIdeal.Read.val_main_v1 (F := Ideal) (m ((c : Thread nD τ).loc main_arg1)) := ((W6_of_ne m ρ c main_v1 (by decide)).trans ((by host_keep hostOps2 : W5 m ρ c (Proc.devRef .tc main_v1) = W4 m ρ c (Proc.devRef .tc main_v1)).trans ((W4_of_ne m ρ c main_v1 (by decide)).trans ((by host_keep hostOps1 : W3 m ρ c (Proc.devRef .tc main_v1) = W2 m ρ c (Proc.devRef .tc main_v1)).trans ((W2_of_ne m ρ c main_v1 (by decide))))))).trans (src1 m ρ c)
theorem dst6 : W6 m ρ c (Proc.devRef .tc main_v3) = Cert.ReferenceIdeal.Read.val_main_v3 (F := Ideal) (m ((c : Thread nD τ).loc main_arg1)) := ((W6_of_ne m ρ c main_v3 (by decide)).trans ((by host_keep hostOps2 : W5 m ρ c (Proc.devRef .tc main_v3) = W4 m ρ c (Proc.devRef .tc main_v3)).trans ((W4_of_ne m ρ c main_v3 (by decide)).trans ((by host_keep hostOps1 : W3 m ρ c (Proc.devRef .tc main_v3) = W2 m ρ c (Proc.devRef .tc main_v3)).trans ((W2_of_ne m ρ c main_v3 (by decide))))))).trans (dst1 m ρ c)
theorem inv6 : W6 m ρ c (Proc.devRef .tc main_v12) = Cert.ReferenceIdeal.Read.val_main_v12 (F := Ideal) (m ((c : Thread nD τ).loc main_arg1)) := ((W6_of_ne m ρ c main_v12 (by decide)).trans ((by host_keep hostOps2 : W5 m ρ c (Proc.devRef .tc main_v12) = W4 m ρ c (Proc.devRef .tc main_v12)).trans ((W4_of_ne m ρ c main_v12 (by decide)).trans ((by host_keep hostOps1 : W3 m ρ c (Proc.devRef .tc main_v12) = W2 m ρ c (Proc.devRef .tc main_v12)).trans ((W2_of_ne m ρ c main_v12 (by decide))))))).trans (inv1 m ρ c)
theorem in3_agg : V7 m ρ c main_v62 = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  stretch3 (W6 m ρ c) _ _ _ _ _ _ _ _ _ _ _ _ _ _ _ (out2 m ρ c) (src6 m ρ c) (dst6 m ρ c) (inv6 m ρ c)
theorem in3_x : V7 m ρ c main_v50 = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  ((by host_keep hostOps3 : W7 m ρ c (Proc.devRef .tc main_v50) = W6 m ρ c (Proc.devRef .tc main_v50))).trans (out2 m ρ c)
theorem in3_arg15 : V7 m ρ c main_arg15 = (m ((c : Thread nD τ).loc main_arg15)) :=
  (by host_keep hostOps3 : W7 m ρ c (Proc.devRef .tc main_arg15) = W6 m ρ c (Proc.devRef .tc main_arg15)).trans ((W6_of_ne m ρ c main_arg15 (by decide)).trans ((by host_keep hostOps2 : W5 m ρ c (Proc.devRef .tc main_arg15) = W4 m ρ c (Proc.devRef .tc main_arg15)).trans ((W4_of_ne m ρ c main_arg15 (by decide)).trans ((by host_keep hostOps1 : W3 m ρ c (Proc.devRef .tc main_arg15) = W2 m ρ c (Proc.devRef .tc main_arg15)).trans ((W2_of_ne m ρ c main_arg15 (by decide)).trans ((by host_keep hostOps0 : W1 m ρ c (Proc.devRef .tc main_arg15) = W0 m ρ c (Proc.devRef .tc main_arg15))))))))
theorem in3_arg16 : V7 m ρ c main_arg16 = (m ((c : Thread nD τ).loc main_arg16)) :=
  (by host_keep hostOps3 : W7 m ρ c (Proc.devRef .tc main_arg16) = W6 m ρ c (Proc.devRef .tc main_arg16)).trans ((W6_of_ne m ρ c main_arg16 (by decide)).trans ((by host_keep hostOps2 : W5 m ρ c (Proc.devRef .tc main_arg16) = W4 m ρ c (Proc.devRef .tc main_arg16)).trans ((W4_of_ne m ρ c main_arg16 (by decide)).trans ((by host_keep hostOps1 : W3 m ρ c (Proc.devRef .tc main_arg16) = W2 m ρ c (Proc.devRef .tc main_arg16)).trans ((W2_of_ne m ρ c main_arg16 (by decide)).trans ((by host_keep hostOps0 : W1 m ρ c (Proc.devRef .tc main_arg16) = W0 m ρ c (Proc.devRef .tc main_arg16))))))))
theorem in3_arg17 : V7 m ρ c main_arg17 = (m ((c : Thread nD τ).loc main_arg17)) :=
  (by host_keep hostOps3 : W7 m ρ c (Proc.devRef .tc main_arg17) = W6 m ρ c (Proc.devRef .tc main_arg17)).trans ((W6_of_ne m ρ c main_arg17 (by decide)).trans ((by host_keep hostOps2 : W5 m ρ c (Proc.devRef .tc main_arg17) = W4 m ρ c (Proc.devRef .tc main_arg17)).trans ((W4_of_ne m ρ c main_arg17 (by decide)).trans ((by host_keep hostOps1 : W3 m ρ c (Proc.devRef .tc main_arg17) = W2 m ρ c (Proc.devRef .tc main_arg17)).trans ((W2_of_ne m ρ c main_arg17 (by decide)).trans ((by host_keep hostOps0 : W1 m ρ c (Proc.devRef .tc main_arg17) = W0 m ρ c (Proc.devRef .tc main_arg17))))))))

theorem out3 : W8 m ρ c (Proc.devRef .tc main_v63) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 5).trans ((Blocks.final3 (V7 m ρ) c).trans ?_)
  rw [in3_agg m ρ c, in3_x m ρ c, in3_arg15 m ρ c, in3_arg16 m ρ c, in3_arg17 m ρ c]
  exact (Cert.ReferenceIdeal.Layers.layer4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

/-! ## Region 4: the decoder -/

theorem in4_h : V8 m ρ c main_v63 = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := out3 m ρ c
theorem in4_arg18 : V8 m ρ c main_arg18 = (m ((c : Thread nD τ).loc main_arg18)) :=
  (W8_of_ne m ρ c main_arg18 (by decide)).trans ((by host_keep hostOps3 : W7 m ρ c (Proc.devRef .tc main_arg18) = W6 m ρ c (Proc.devRef .tc main_arg18)).trans ((W6_of_ne m ρ c main_arg18 (by decide)).trans ((by host_keep hostOps2 : W5 m ρ c (Proc.devRef .tc main_arg18) = W4 m ρ c (Proc.devRef .tc main_arg18)).trans ((W4_of_ne m ρ c main_arg18 (by decide)).trans ((by host_keep hostOps1 : W3 m ρ c (Proc.devRef .tc main_arg18) = W2 m ρ c (Proc.devRef .tc main_arg18)).trans ((W2_of_ne m ρ c main_arg18 (by decide)).trans ((by host_keep hostOps0 : W1 m ρ c (Proc.devRef .tc main_arg18) = W0 m ρ c (Proc.devRef .tc main_arg18)))))))))
theorem in4_arg19 : V8 m ρ c main_arg19 = (m ((c : Thread nD τ).loc main_arg19)) :=
  (W8_of_ne m ρ c main_arg19 (by decide)).trans ((by host_keep hostOps3 : W7 m ρ c (Proc.devRef .tc main_arg19) = W6 m ρ c (Proc.devRef .tc main_arg19)).trans ((W6_of_ne m ρ c main_arg19 (by decide)).trans ((by host_keep hostOps2 : W5 m ρ c (Proc.devRef .tc main_arg19) = W4 m ρ c (Proc.devRef .tc main_arg19)).trans ((W4_of_ne m ρ c main_arg19 (by decide)).trans ((by host_keep hostOps1 : W3 m ρ c (Proc.devRef .tc main_arg19) = W2 m ρ c (Proc.devRef .tc main_arg19)).trans ((W2_of_ne m ρ c main_arg19 (by decide)).trans ((by host_keep hostOps0 : W1 m ρ c (Proc.devRef .tc main_arg19) = W0 m ρ c (Proc.devRef .tc main_arg19)))))))))
theorem in4_arg20 : V8 m ρ c main_arg20 = (m ((c : Thread nD τ).loc main_arg20)) :=
  (W8_of_ne m ρ c main_arg20 (by decide)).trans ((by host_keep hostOps3 : W7 m ρ c (Proc.devRef .tc main_arg20) = W6 m ρ c (Proc.devRef .tc main_arg20)).trans ((W6_of_ne m ρ c main_arg20 (by decide)).trans ((by host_keep hostOps2 : W5 m ρ c (Proc.devRef .tc main_arg20) = W4 m ρ c (Proc.devRef .tc main_arg20)).trans ((W4_of_ne m ρ c main_arg20 (by decide)).trans ((by host_keep hostOps1 : W3 m ρ c (Proc.devRef .tc main_arg20) = W2 m ρ c (Proc.devRef .tc main_arg20)).trans ((W2_of_ne m ρ c main_arg20 (by decide)).trans ((by host_keep hostOps0 : W1 m ρ c (Proc.devRef .tc main_arg20) = W0 m ρ c (Proc.devRef .tc main_arg20)))))))))
theorem in4_arg21 : V8 m ρ c main_arg21 = (m ((c : Thread nD τ).loc main_arg21)) :=
  (W8_of_ne m ρ c main_arg21 (by decide)).trans ((by host_keep hostOps3 : W7 m ρ c (Proc.devRef .tc main_arg21) = W6 m ρ c (Proc.devRef .tc main_arg21)).trans ((W6_of_ne m ρ c main_arg21 (by decide)).trans ((by host_keep hostOps2 : W5 m ρ c (Proc.devRef .tc main_arg21) = W4 m ρ c (Proc.devRef .tc main_arg21)).trans ((W4_of_ne m ρ c main_arg21 (by decide)).trans ((by host_keep hostOps1 : W3 m ρ c (Proc.devRef .tc main_arg21) = W2 m ρ c (Proc.devRef .tc main_arg21)).trans ((W2_of_ne m ρ c main_arg21 (by decide)).trans ((by host_keep hostOps0 : W1 m ρ c (Proc.devRef .tc main_arg21) = W0 m ρ c (Proc.devRef .tc main_arg21)))))))))

/-- The result array at the last segment boundary is the reference's result of the launch arguments. -/
theorem result : W9 m ρ c (Proc.devRef .tc main_v64) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W9_arr m ρ c 5).trans ((Blocks.final4 (V8 m ρ) c).trans ?_)
  rw [in4_h m ρ c, in4_arg18 m ρ c, in4_arg19 m ρ c, in4_arg20 m ρ c, in4_arg21 m ρ c]
  exact (Cert.ReferenceIdeal.Layers.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

end Cert.KernelIdeal.Chain

end
-- ==== Proof.lean ====
/-
  The certificate: a four-layer GraphSAGE network with a decoder, as five pipelined kernels between host
  gather / segment-sum stretches, against its jnp reference.

  Both programs aggregate with the same host operations in the same order, so the aggregation is carried through
  unopened. What differs is the dense part. The kernels add the two matrix products of a SAGE combine first and the
  bias last, where the reference adds the bias in between: equal on the extended reals because addition there is
  commutative and associative, with no finiteness needed. The kernels work on blocks of 10000 rows with operands
  cast to bf16: a row of every dense stage depends only on the same row of its inputs, the ten row blocks tile each
  output, and a change of float format is the identity at the ideal instance. The decoder's softmax takes its row
  maximum from minus infinity where jax additionally takes the maximum with minus infinity once more, which changes
  nothing. The precondition is not used beyond the frames.
-/
import proofs.«164675_j61770219651287_1_alg».proof.Defs
import proofs.«164675_j61770219651287_1_alg».proof.Proof.Gen.Kernel
import proofs.«164675_j61770219651287_1_alg».proof.Proof.Gen.Kernel.Skeleton
import proofs.«164675_j61770219651287_1_alg».proof.Proof.Gen.Kernel.Launch
import proofs.«164675_j61770219651287_1_alg».proof.Proof.Gen.Kernel.Points
import proofs.«164675_j61770219651287_1_alg».proof.Proof.Gen.Kernel.Frame
import proofs.«164675_j61770219651287_1_alg».proof.Proof.Gen.KernelIdeal
import proofs.«164675_j61770219651287_1_alg».proof.Proof.Gen.KernelIdeal.Skeleton
import proofs.«164675_j61770219651287_1_alg».proof.Proof.Gen.KernelIdeal.Launch
import proofs.«164675_j61770219651287_1_alg».proof.Proof.Gen.KernelIdeal.Points
import proofs.«164675_j61770219651287_1_alg».proof.Proof.Gen.KernelIdeal.Frame
import proofs.«164675_j61770219651287_1_alg».proof.Proof.Gen.ReferenceIdeal
import proofs.«164675_j61770219651287_1_alg».proof.Proof.Gen.ReferenceIdeal.Run
import proofs.«164675_j61770219651287_1_alg».proof.Proof.Gen.ReferenceIdeal.Read
import proofs.«164675_j61770219651287_1_alg».proof.Proof.Gen.Pre_finite_inputs
import proofs.«164675_j61770219651287_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

set_option maxHeartbeats 4000000 in
/-- Both programs end with the reference's result function of the (agreeing) arguments. -/
theorem algebraic : Cert.algebraic_KernelIdeal_ReferenceIdeal := by
  intro m ρ m' ρ' _ hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Chain.result m ρ c), (h c).2⟩)
      (Cert.KernelIdeal.Val.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    rw [(h c).1, Cert.ReferenceIdeal.Read.val_main_v131_eq, h0, h1, h2, h3, h4, h5, h6, h7, h8, h9, h10, h11, h12, h13, h14, h15, h16, h17, h18, h19, h20, h21]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
